-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x32x32 : Shape := ⟨4, ![32, 64, 32, 32]⟩
abbrev S16x64 : Shape := ⟨2, ![16, 64]⟩
abbrev S_ : Shape := ⟨0, ![]⟩

class Facts : Prop where
  bcast_S_S32x64x32x32 : S_.BroadcastsInDim S32x64x32x32 (![] : Fin 0 → Fin S32x64x32x32.rank)
  reducesTo_S32x64x32x32_S_d0_1_2_3 : S32x64x32x32.ReducesTo [0, 1, 2, 3] S_
  h_S_ : 0 < S_.numel
  bcast_S_S16x64 : S_.BroadcastsInDim S16x64 (![] : Fin 0 → Fin S16x64.rank)
  reducesTo_S16x64_S_d0_1 : S16x64.ReducesTo [0, 1] S_

variable [Facts]

def fn {F : FTy → Type} [FloatOps F] (main_arg0 : FVec F S32x64x32x32 .f32) (main_arg1 : FVec F S16x64 .f32) (main_arg2 : FVec F S16x64 .f32) : IVec S_ 1 :=
  let main_v0 : FVec F S32x64x32x32 .f32 := Host.absf main_arg0
  let main_cst : FVec F S_ .f32 := constant S_ .f32 0x7F800000#32
  let main_v1 : FVec F S32x64x32x32 .f32 := broadcastInDim S32x64x32x32 ![] bcast_S_S32x64x32x32 main_cst
  let main_v2 : IVec S32x64x32x32 1 := cmpf .olt main_v0 main_v1
  let main_c : IVec S_ 1 := constantI S_ 1 1#1
  let main_v3 : IVec S_ 1 := (fun x v => Host.reduce IntOp.andi x v reducesTo_S32x64x32x32_S_d0_1_2_3 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  main_v13
-- ==== Kernel.lean ====
abbrev S32x64x32x32 : Shape := ⟨4, ![32, 64, 32, 32]⟩
abbrev S16x64 : Shape := ⟨2, ![16, 64]⟩
abbrev S32x64x1024 : Shape := ⟨3, ![32, 64, 1024]⟩
abbrev S2x64 : Shape := ⟨2, ![2, 64]⟩
abbrev S8x64x1024 : Shape := ⟨3, ![8, 64, 1024]⟩
abbrev S64x1024 : Shape := ⟨2, ![64, 1024]⟩
abbrev S64 : Shape := ⟨1, ![64]⟩
abbrev S1x64 : Shape := ⟨2, ![1, 64]⟩
abbrev S16x1x64 : Shape := ⟨3, ![16, 1, 64]⟩
abbrev S32x16x64x1024 : Shape := ⟨4, ![32, 16, 64, 1024]⟩
abbrev S1x1x64 : Shape := ⟨3, ![1, 1, 64]⟩
abbrev S32x1x64x1024 : Shape := ⟨4, ![32, 1, 64, 1024]⟩
abbrev S1x64x1 : Shape := ⟨3, ![1, 64, 1]⟩
abbrev S32x1024x32x32 : Shape := ⟨4, ![32, 1024, 32, 32]⟩

abbrev nBuf : Space → Nat
  | .hbm => 20
  | .vmem => 11
  | .smem => 0
  | _ => 0

abbrev bufTy : (tb : Table) → Fin (tcTables nBuf tb) → BufTy
  | .hbm, ⟨0, _⟩ => ⟨S32x64x32x32, .f32⟩
  | .hbm, ⟨1, _⟩ => ⟨S16x64, .f32⟩
  | .hbm, ⟨2, _⟩ => ⟨S16x64, .f32⟩
  | .hbm, ⟨3, _⟩ => ⟨S32x64x1024, .f32⟩
  | .hbm, ⟨4, _⟩ => ⟨S2x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S16x64, .f32⟩
  | .hbm, ⟨11, _⟩ => ⟨S16x64, .f32⟩
  | .hbm, ⟨12, _⟩ => ⟨S1x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x1x64, .f32⟩
  | .hbm, ⟨17, _⟩ => ⟨S16x1x64, .f32⟩
  | .hbm, ⟨18, _⟩ => ⟨S32x16x64x1024, .f32⟩
  | .hbm, ⟨19, _⟩ => ⟨S32x1024x32x32, .f32⟩
  | .local _ .vmem, ⟨0, _⟩ => ⟨S8x64x1024, .f32⟩
  | .local _ .vmem, ⟨1, _⟩ => ⟨S8x64x1024, .f32⟩
  | .local _ .vmem, ⟨2, _⟩ => ⟨S2x64, .f32⟩
  | .local _ .vmem, ⟨3, _⟩ => ⟨S2x64, .f32⟩
  | .local _ .vmem, ⟨4, _⟩ => ⟨S32x64x1024, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S32x1x64x1024, .f32⟩
  | .local _ .vmem, ⟨10, _⟩ => ⟨S32x1x64x1024, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v22 : BitVec 1 := Scalar.cmpi .eq arg0 c3_i32
  let v23 : BitVec 32 := Scalar.extui v22
  let c0_i32_13 : BitVec 32 := 0#32
  let v24 : BitVec 1 := Scalar.cmpi .ne v23 c0_i32_13
  v24

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .vmem S32x64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S32x1x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S32x64x32x32_S32x64x1024 : S32x64x32x32.ShapeCasts S32x64x1024
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  reduces_S8x64x1024_S64x1024 : S8x64x1024.Reduces [0] S64x1024
  reduces_S64x1024_S64 : S64x1024.Reduces [1] S64
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  inb_S2x64_S1x64_1_0 : ∀ a, (![1, 0] : Fin 2 → Nat) a + S1x64.size a ≤ S2x64.size a
  slices_S2x64_S1x64_0_0 : S2x64.Slices ![0, 0] S1x64
  slices_S2x64_S1x64_1_0 : S2x64.Slices ![1, 0] S1x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  shapeCasts_S16x64_S16x1x64 : S16x64.ShapeCasts S16x1x64
  inb_S32x64x1024_S32x64x1024_0_0_0 : ∀ a, (![0, 0, 0] : Fin 3 → Nat) a + S32x64x1024.size a ≤ S32x64x1024.size a
  h_S32x64x1024 : 0 < S32x64x1024.numel
  shapeCasts_S32x64x1024_S32x64x1024 : S32x64x1024.ShapeCasts S32x64x1024
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S64_S1x64x1 : S64.ShapeCasts S1x64x1
  broadcasts_S1x64x1_S32x64x1024 : S1x64x1.Broadcasts S32x64x1024
  inb_S32x1x64x1024_S32x1x64x1024_0_0_0_0 : ∀ a, (![0, 0, 0, 0] : Fin 4 → Nat) a + S32x1x64x1024.size a ≤ S32x1x64x1024.size a
  h_S32x1x64x1024 : 0 < S32x1x64x1024.numel
  shapeCasts_S32x1x64x1024_S32x64x1024 : S32x1x64x1024.ShapeCasts S32x64x1024
  shapeCasts_S32x64x1024_S32x1x64x1024 : S32x64x1024.ShapeCasts S32x1x64x1024
  shapeCasts_S32x16x64x1024_S32x1024x32x32 : S32x16x64x1024.ShapeCasts S32x1024x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S32x64x1024.size a
  hwx0_0 : ∀ i : grid0.Coords, EltTy.bits .f32 = 32 ∨ (Rect.block (s := S32x64x1024) S8x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x64x1024.size a ≤ S32x64x1024.size a
  hwx1_0 : ∀ i : grid1.Coords, EltTy.bits .f32 = 32 ∨ (Rect.block (s := S32x64x1024) S32x64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S16x1x64.size a
  hwx1_1 : ∀ i : grid1.Coords, EltTy.bits .f32 = 32 ∨ (Rect.block (s := S16x1x64) S1x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S16x1x64.size a
  hwx1_2 : ∀ i : grid1.Coords, EltTy.bits .f32 = 32 ∨ (Rect.block (s := S16x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1x64x1024.size a ≤ S32x16x64x1024.size a
  hwx1_3 : ∀ i : grid1.Coords, EltTy.bits .f32 = 32 ∨ (Rect.block (s := S32x16x64x1024) S32x1x64x1024.size (cc1_transform_3 i) (hinb1_3 i)).WholeWords (EltTy.packing .f32)

variable [Facts₀]

abbrev win0_0 : Pipeline.Window sig grid0 :=
  Pipeline.Window.ofSpec (Memref.whole main_v0) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S32x64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S32x1x64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x32x32 : Shape := ⟨4, ![32, 64, 32, 32]⟩
abbrev S16x64 : Shape := ⟨2, ![16, 64]⟩
abbrev S_ : Shape := ⟨0, ![]⟩
abbrev S64 : Shape := ⟨1, ![64]⟩
abbrev S1x64x1x1 : Shape := ⟨4, ![1, 64, 1, 1]⟩
abbrev S1x16x64x1x1 : Shape := ⟨5, ![1, 16, 64, 1, 1]⟩
abbrev S32x1x64x32x32 : Shape := ⟨5, ![32, 1, 64, 32, 32]⟩
abbrev S32x16x64x32x32 : Shape := ⟨5, ![32, 16, 64, 32, 32]⟩
abbrev S32x1024x32x32 : Shape := ⟨4, ![32, 1024, 32, 32]⟩

abbrev nBuf : Space → Nat
  | .hbm => 36
  | .vmem => 0
  | .smem => 0
  | _ => 0

abbrev bufTy : (tb : Table) → Fin (tcTables nBuf tb) → BufTy
  | .hbm, ⟨0, _⟩ => ⟨S32x64x32x32, .f32⟩
  | .hbm, ⟨1, _⟩ => ⟨S16x64, .f32⟩
  | .hbm, ⟨2, _⟩ => ⟨S16x64, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1x64x1x1, .f32⟩
  | .hbm, ⟨9, _⟩ => ⟨S32x64x32x32, .f32⟩
  | .hbm, ⟨10, _⟩ => ⟨S32x64x32x32, .f32⟩
  | .hbm, ⟨11, _⟩ => ⟨S32x64x32x32, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64x1x1, .f32⟩
  | .hbm, ⟨22, _⟩ => ⟨S32x64x32x32, .f32⟩
  | .hbm, ⟨23, _⟩ => ⟨S32x64x32x32, .f32⟩
  | .hbm, ⟨24, _⟩ => ⟨S1x64x1x1, .f32⟩
  | .hbm, ⟨25, _⟩ => ⟨S32x64x32x32, .f32⟩
  | .hbm, ⟨26, _⟩ => ⟨S32x64x32x32, .f32⟩
  | .hbm, ⟨27, _⟩ => ⟨S1x16x64x1x1, .f32⟩
  | .hbm, ⟨28, _⟩ => ⟨S32x1x64x32x32, .f32⟩
  | .hbm, ⟨29, _⟩ => ⟨S32x16x64x32x32, .f32⟩
  | .hbm, ⟨30, _⟩ => ⟨S32x16x64x32x32, .f32⟩
  | .hbm, ⟨31, _⟩ => ⟨S32x16x64x32x32, .f32⟩
  | .hbm, ⟨32, _⟩ => ⟨S1x16x64x1x1, .f32⟩
  | .hbm, ⟨33, _⟩ => ⟨S32x16x64x32x32, .f32⟩
  | .hbm, ⟨34, _⟩ => ⟨S32x16x64x32x32, .f32⟩
  | .hbm, ⟨35, _⟩ => ⟨S32x1024x32x32, .f32⟩
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  reducesTo_S32x64x32x32_S64_d0_2_3 : S32x64x32x32.ReducesTo [0, 2, 3] S64
  h_S_ : 0 < S_.numel
  bcast_S_S64 : S_.BroadcastsInDim S64 (![] : Fin 0 → Fin S64.rank)
  bcast_S64_S1x64x1x1_1 : S64.BroadcastsInDim S1x64x1x1 (![1] : Fin 1 → Fin S1x64x1x1.rank)
  bcast_S1x64x1x1_S32x64x32x32_0_1_2_3 : S1x64x1x1.BroadcastsInDim S32x64x32x32 (![0, 1, 2, 3] : Fin 4 → Fin S32x64x32x32.rank)
  bcast_S16x64_S1x16x64x1x1_1_2 : S16x64.BroadcastsInDim S1x16x64x1x1 (![1, 2] : Fin 2 → Fin S1x16x64x1x1.rank)
  bcast_S32x64x32x32_S32x1x64x32x32_0_2_3_4 : S32x64x32x32.BroadcastsInDim S32x1x64x32x32 (![0, 2, 3, 4] : Fin 4 → Fin S32x1x64x32x32.rank)
  bcast_S1x16x64x1x1_S32x16x64x32x32_0_1_2_3_4 : S1x16x64x1x1.BroadcastsInDim S32x16x64x32x32 (![0, 1, 2, 3, 4] : Fin 5 → Fin S32x16x64x32x32.rank)
  bcast_S32x1x64x32x32_S32x16x64x32x32_0_1_2_3_4 : S32x1x64x32x32.BroadcastsInDim S32x16x64x32x32 (![0, 1, 2, 3, 4] : Fin 5 → Fin S32x16x64x32x32.rank)
  shapeCasts_S32x16x64x32x32_S32x1024x32x32 : S32x16x64x32x32.ShapeCasts S32x1024x32x32

variable [Facts₀]

class Facts : Prop extends Facts₀ where

variable [Facts]
-- ==== Proof.K.Base.lean ====
/-
  The statistics pass, first part: what its three control cases are stated over.

  The pass walks the 32 samples in 4 blocks of 8.  A scratch of two rows (sum, sum of squares) is zeroed at the
  first block, added to at every block, and turned into (mean, reciprocal standard deviation) at the last block,
  the only one that stores into the result window.  So a block is in one of three cases: first (zero, then add),
  middle (add), last (add, then finish).  Here: the block of the input a point reads, the two branch conditions in
  closed form over the four points, where the result window is idle and where it is written back, and the
  class invariant opened at the scratch.
-/
import proofs.«138456_j7902739824826_2_alg».proof.Proof.Gen.Kernel.Launch
import proofs.«138456_j7902739824826_2_alg».proof.Proof.Gen.Kernel.Skeleton
import proofs.«138456_j7902739824826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions -/

/-- "This is the first block": the body's first conditional, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last block": the body's second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the result window, through which its contents are stated. -/
abbrev VO0_1 : View sig .tc .vmem S2x64 .f32 := (Memref.whole cc0_stg1_0 : Memref sig .tc .vmem S2x64 .f32).view
abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x64 .f32 := win0_1.stage (cfg0.slots t 1)
abbrev hs0_1 (t : Fin cfg0.N) : (ms0_1 t).IsWhole := hstage0_1 ((cfg0.slots t 1).cast nbuf0_1)
/-- The scratch (sum row, sum-of-squares row). -/
abbrev scM0_0 : Memref sig .tc .vmem S2x64 .f32 := Memref.whole cc0_scratch0
abbrev VS0_0 : View sig .tc .vmem S2x64 .f32 := scM0_0.view

/-- The other scoped buffers of the core (the second pass's staging buffers), each whole at some contents: the
    statistics pass never touches them. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents, beside the untouched rest. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [scopedRest0_eq]; simp only [scM0_0, owns_whole]; try rfl

end Cert.Kernel.Hand

end
-- ==== Proof.K.RunA.lean ====
/-
  The statistics pass, case A: the first block — the scratch is zeroed, then the block's sums are added; nothing is stored into the result window.
  The body is run symbolically on whole staging memrefs; what each buffer ends with is recorded as the list of
  pieces its stores wrote, last first.
-/
import proofs.«138456_j7902739824826_2_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A: the input block at `x0`, the result window's buffer handed back untouched, the scratch at anything before
    and with its pieces written after. -/
noncomputable def kernelRun0_A (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) :
    Σ' (L1 : List (View.Piece (Elt F) S2x64 .f32)), { LS0 : List (View.Piece (Elt F) S2x64 .f32) //
      ∀ (xi1 : Vec F S2x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__stats_kernel i arg1 harg1 arg2 harg2 arg3 harg3) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.RunB.lean ====
/-
  The statistics pass, case B: a middle block — the block's sums are added to the scratch the block before left; nothing is stored into the result window.
  The body is run symbolically on whole staging memrefs; what each buffer ends with is recorded as the list of
  pieces its stores wrote, last first.
-/
import proofs.«138456_j7902739824826_2_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B: the input block at `x0`, the result window's buffer handed back untouched, the scratch at `xs0` before and
    with its pieces written after. -/
noncomputable def kernelRun0_B (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) :
    Σ' (L1 : List (View.Piece (Elt F) S2x64 .f32)), { LS0 : List (View.Piece (Elt F) S2x64 .f32) //
      ∀ (xi1 : Vec F S2x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__stats_kernel i arg1 harg1 arg2 harg2 arg3 harg3) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.RunC.lean ====
/-
  The statistics pass, case C: the last block — the block's sums are added to the scratch, then mean and reciprocal standard deviation are computed from it and stored as the two rows of the result window.
  The body is run symbolically on whole staging memrefs; what each buffer ends with is recorded as the list of
  pieces its stores wrote, last first.
-/
import proofs.«138456_j7902739824826_2_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C: the input block at `x0`, the result window's buffer at anything before and with its pieces written after,
    the scratch at `xs0` before and with its pieces written after. -/
noncomputable def kernelRun0_C (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) :
    Σ' (L1 : List (View.Piece (Elt F) S2x64 .f32)), { LS0 : List (View.Piece (Elt F) S2x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__stats_kernel i arg1 harg1 arg2 harg2 arg3 harg3) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Hand

end
-- ==== Proof.K.Reg0.lean ====
/-
  The statistics pass, assembled: what each case leaves in the scratch and in the result window's buffer (its
  stores read back), what they hold after each of the four points — by recursion on the point, a later point's case
  run on what the point before left in the scratch —, the invariant that carries the scratch between points, the
  proof data and the body obligation (a case split on the point).
-/
import proofs.«138456_j7902739824826_2_alg».proof.Proof.K.RunA
import proofs.«138456_j7902739824826_2_alg».proof.Proof.K.RunB
import proofs.«138456_j7902739824826_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

def out0_A_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) : Vec F S2x64 .f32 :=
  VO0_1.read (Elt F) (VO0_1.writes (Elt F) VO0_1.junk (kernelRun0_A c i arg1 harg1 arg2 harg2 arg3 harg3 hc0 hc1 x0).1)
theorem scover0_A_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) (y : S2x64.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S2x64.size (by sl_kernel_rfl) y
def sout0_A_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) : Vec F S2x64 .f32 :=
  VS0_0.read (Elt F) (VS0_0.writes (Elt F) VS0_0.junk (kernelRun0_A c i arg1 harg1 arg2 harg2 arg3 harg3 hc0 hc1 x0).2.1)

def out0_B_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) : Vec F S2x64 .f32 :=
  VO0_1.read (Elt F) (VO0_1.writes (Elt F) VO0_1.junk (kernelRun0_B c i arg1 harg1 arg2 harg2 arg3 harg3 hc0 hc1 x0 xs0).1)
theorem scover0_B_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) (y : S2x64.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x64.size (by sl_kernel_rfl) y
def sout0_B_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) : Vec F S2x64 .f32 :=
  VS0_0.read (Elt F) (VS0_0.writes (Elt F) VS0_0.junk (kernelRun0_B c i arg1 harg1 arg2 harg2 arg3 harg3 hc0 hc1 x0 xs0).2.1)

theorem cover0_C_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) (y : S2x64.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x64.size (by sl_kernel_rfl) y
def out0_C_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) : Vec F S2x64 .f32 :=
  VO0_1.read (Elt F) (VO0_1.writes (Elt F) VO0_1.junk (kernelRun0_C c i arg1 harg1 arg2 harg2 arg3 harg3 hc0 hc1 x0 xs0).1)
theorem scover0_C_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) (y : S2x64.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x64.size (by sl_kernel_rfl) y
def sout0_C_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) : Vec F S2x64 .f32 :=
  VS0_0.read (Elt F) (VS0_0.writes (Elt F) VS0_0.junk (kernelRun0_C c i arg1 harg1 arg2 harg2 arg3 harg3 hc0 hc1 x0 xs0).2.1)

section
variable (V : (c : Dev nD) → (b : Ref sig .tc) → Buf (Elt F) ((c : Thread nD τ).loc b))

/-! ## What the result window's buffer and the scratch hold after each point -/

/-- After the body at position `n`: (the result window's buffer, the scratch). The first point is case A; a later
    point is case C when it is the last and case B otherwise, run on the scratch the point before left. -/
def outsAt0 (c : Dev nD) : (n : ℕ) → n < cfg0.N → Vec F S2x64 .f32 × Vec F S2x64 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the first point the class invariant (the scratch at anything); afterwards the scratch at
    what the point before left, beside the untouched rest and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ Rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the scratch
    at what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      have hz : t.val = 0 := by omega
      rw [PhiS_castSucc V c t, PhiS_zero V c _ _ hz, PhiA0_eq]
      iintro ⟨⟨⟨HS0, HR⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _)
          iexact HR
        iexact Hg
      isplitl [Ho]; · iexact Ho
      isplitl [H0]; · iexact H0
      iexists _; iexact H1
  · have hz : t.val ≠ 0 := by omega
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS_castSucc V c t, PhiS_pos V c _ _ hz]
      iintro ⟨⟨⟨HS0, HR⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, HR⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _)
          iexact HR
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the pass is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 4 := N_0; omega)

end

end Cert.Kernel.Hand

end
-- ==== Proof.K.Reg1.lean ====
/-
  The affine pass: one grid point per branch `n` (16 of them).  At a point the body reads the whole input
  (32 × 64 × 1024), branch `n`'s row of the scale table and of the shift table (64 entries each), and stores
  `input · scale + shift`, the two rows spread along the channel axis, as the branch's slab of the result.
  Nothing is kept between points, so what a point leaves in the result window's buffer is one function of the three
  blocks it read.  Stated at a parameter `V`: the buffers' contents when the pass is entered.
-/
import proofs.«138456_j7902739824826_2_alg».proof.Proof.Gen.Kernel.Launch
import proofs.«138456_j7902739824826_2_alg».proof.Proof.Gen.Kernel.Skeleton
import proofs.«138456_j7902739824826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S32x64x1024 := Rect.unit (s := S32x64x1024) ![0, 0, 0] S32x64x1024.size inb_S32x64x1024_S32x64x1024_0_0_0
abbrev r1_1 : Rect S1x1x64 := Rect.unit (s := S1x1x64) ![0, 0, 0] S1x1x64.size inb_S1x1x64_S1x1x64_0_0_0
abbrev r1_3 : Rect S32x1x64x1024 := Rect.unit (s := S32x1x64x1024) ![0, 0, 0, 0] S32x1x64x1024.size inb_S32x1x64x1024_S32x1x64x1024_0_0_0_0

/-- The result window's staging buffer after the body: its one store, of the body's arithmetic on the three blocks. -/
def out1_3 (x0 : Vec F S32x64x1024 .f32) (x1 x2 : Vec F S1x1x64 .f32) : Vec F S32x1x64x1024 .f32 :=
  View.canon [⟨r1_3, k1_pay1 (View.ld x0 r1_0) (View.ld x1 r1_1) (View.ld x2 r1_1)⟩]

/-- The store is of the whole buffer, so it covers it. -/
theorem cover1_3 (p0 : Vec F S32x1x64x1024 .f32) (y : S32x1x64x1024.Idx) :
    ∃ pc ∈ ([⟨r1_3, p0⟩] : List (View.Piece (Elt F) S32x1x64x1024 .f32)), y ∈ pc.1.set :=
  View.cover_of_tiledL [⟨r1_3, p0⟩] S32x1x64x1024.size (by sl_kernel_rfl) y

set_option maxHeartbeats 4000000 in
/-- The body on whole staging memrefs: the inputs' at their contents, the result's at anything; it ends with the
    inputs' as they were and the result's at `out1_3` of them. -/
theorem sound_kernel1 (c : Dev nD) (E : Set ℕ) (i : grid1.Coords) (arg2 : Memref sig .tc .vmem S32x64x1024 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S32x1x64x1024 .f32) (harg5 : arg5.IsWhole)
    (x0 : Vec F S32x64x1024 .f32) (x1 x2 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__norm_affine_kernel i arg2 harg2 arg3 harg3 arg4 harg4 arg5 harg5) K := by
  simp only [cc1__norm_affine_kernel_eq_skeleton]; unfold cc1__norm_affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- After the body at point `t`: each input's buffer at its block, the result's at `out1_3` of the three blocks; the
    invariant is the class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The whole program as five segments — the reshape of the input, the statistics pass, the host lines that fold
  the statistics into the per-branch scale and shift tables, the affine pass, the final reshape — and its run: every
  weakly fair execution terminates and every unscoped buffer ends at the fold `W5` of the launch memory through
  the segments (a host stretch applies its operations; a pass leaves its arrays at what its write-backs leave and
  every other buffer as it found it).  The arguments are written by no segment, so they end as launched.
-/
import proofs.«138456_j7902739824826_2_alg».proof.Proof.K.Reg0
import proofs.«138456_j7902739824826_2_alg».proof.Proof.K.Reg1
import proofs.«138456_j7902739824826_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### A host stretch changes only the buffers it writes -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <|
    (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The two passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    unscoped buffer ends at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- The run with the result named: the result buffer ends at `W5`'s value there, the arguments as launched. -/
theorem run_value : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Hand

end
-- ==== Proof.KI.Base.lean ====
/-
  The statistics pass, first part: what its three control cases are stated over.

  The pass walks the 32 samples in 4 blocks of 8.  A scratch of two rows (sum, sum of squares) is zeroed at the
  first block, added to at every block, and turned into (mean, reciprocal standard deviation) at the last block,
  the only one that stores into the result window.  So a block is in one of three cases: first (zero, then add),
  middle (add), last (add, then finish).  Here: the block of the input a point reads, the two branch conditions in
  closed form over the four points, where the result window is idle and where it is written back, and the
  class invariant opened at the scratch.
-/
import proofs.«138456_j7902739824826_2_alg».proof.Proof.Gen.KernelIdeal.Launch
import proofs.«138456_j7902739824826_2_alg».proof.Proof.Gen.KernelIdeal.Skeleton
import proofs.«138456_j7902739824826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions -/

/-- "This is the first block": the body's first conditional, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last block": the body's second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the result window, through which its contents are stated. -/
abbrev VO0_1 : View sig .tc .vmem S2x64 .f32 := (Memref.whole cc0_stg1_0 : Memref sig .tc .vmem S2x64 .f32).view
abbrev ms0_0 (t : Fin cfg0.N) : Memref sig .tc .vmem S8x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x64 .f32 := win0_1.stage (cfg0.slots t 1)
abbrev hs0_1 (t : Fin cfg0.N) : (ms0_1 t).IsWhole := hstage0_1 ((cfg0.slots t 1).cast nbuf0_1)
/-- The scratch (sum row, sum-of-squares row). -/
abbrev scM0_0 : Memref sig .tc .vmem S2x64 .f32 := Memref.whole cc0_scratch0
abbrev VS0_0 : View sig .tc .vmem S2x64 .f32 := scM0_0.view

/-- The other scoped buffers of the core (the second pass's staging buffers), each whole at some contents: the
    statistics pass never touches them. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch as a memref owned at some contents, beside the untouched rest. -/
theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [scopedRest0_eq]; simp only [scM0_0, owns_whole]; try rfl

end Cert.KernelIdeal.Hand

end
-- ==== Proof.KI.RunA.lean ====
/-
  The statistics pass, case A: the first block — the scratch is zeroed, then the block's sums are added; nothing is stored into the result window.
  The body is run symbolically on whole staging memrefs; what each buffer ends with is recorded as the list of
  pieces its stores wrote, last first.
-/
import proofs.«138456_j7902739824826_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A: the input block at `x0`, the result window's buffer handed back untouched, the scratch at anything before
    and with its pieces written after. -/
noncomputable def kernelRun0_A (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) :
    Σ' (L1 : List (View.Piece (Elt F) S2x64 .f32)), { LS0 : List (View.Piece (Elt F) S2x64 .f32) //
      ∀ (xi1 : Vec F S2x64 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__stats_kernel i arg1 harg1 arg2 harg2 arg3 harg3) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.RunB.lean ====
/-
  The statistics pass, case B: a middle block — the block's sums are added to the scratch the block before left; nothing is stored into the result window.
  The body is run symbolically on whole staging memrefs; what each buffer ends with is recorded as the list of
  pieces its stores wrote, last first.
-/
import proofs.«138456_j7902739824826_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B: the input block at `x0`, the result window's buffer handed back untouched, the scratch at `xs0` before and
    with its pieces written after. -/
noncomputable def kernelRun0_B (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) :
    Σ' (L1 : List (View.Piece (Elt F) S2x64 .f32)), { LS0 : List (View.Piece (Elt F) S2x64 .f32) //
      ∀ (xi1 : Vec F S2x64 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__stats_kernel i arg1 harg1 arg2 harg2 arg3 harg3) K } := by
  refine ⟨[], ?_, fun xi1 E K => ?run⟩
  case run =>
    simp only [cc0__stats_kernel_eq_skeleton]; unfold cc0__stats_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.RunC.lean ====
/-
  The statistics pass, case C: the last block — the block's sums are added to the scratch, then mean and reciprocal standard deviation are computed from it and stored as the two rows of the result window.
  The body is run symbolically on whole staging memrefs; what each buffer ends with is recorded as the list of
  pieces its stores wrote, last first.
-/
import proofs.«138456_j7902739824826_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C: the input block at `x0`, the result window's buffer at anything before and with its pieces written after,
    the scratch at `xs0` before and with its pieces written after. -/
noncomputable def kernelRun0_C (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) :
    Σ' (L1 : List (View.Piece (Elt F) S2x64 .f32)), { LS0 : List (View.Piece (Elt F) S2x64 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__stats_kernel i arg1 harg1 arg2 harg2 arg3 harg3) K } := by
  refine ⟨?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.KI.Reg0.lean ====
/-
  The statistics pass, assembled: what each case leaves in the scratch and in the result window's buffer (its
  stores read back), what they hold after each of the four points — by recursion on the point, a later point's case
  run on what the point before left in the scratch —, the invariant that carries the scratch between points, the
  proof data and the body obligation (a case split on the point).
-/
import proofs.«138456_j7902739824826_2_alg».proof.Proof.KI.RunA
import proofs.«138456_j7902739824826_2_alg».proof.Proof.KI.RunB
import proofs.«138456_j7902739824826_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

def out0_A_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) : Vec F S2x64 .f32 :=
  VO0_1.read (Elt F) (VO0_1.writes (Elt F) VO0_1.junk (kernelRun0_A c i arg1 harg1 arg2 harg2 arg3 harg3 hc0 hc1 x0).1)
theorem scover0_A_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) (y : S2x64.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S2x64.size (by sl_kernel_rfl) y
def sout0_A_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec F S8x64x1024 .f32) : Vec F S2x64 .f32 :=
  VS0_0.read (Elt F) (VS0_0.writes (Elt F) VS0_0.junk (kernelRun0_A c i arg1 harg1 arg2 harg2 arg3 harg3 hc0 hc1 x0).2.1)

def out0_B_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) : Vec F S2x64 .f32 :=
  VO0_1.read (Elt F) (VO0_1.writes (Elt F) VO0_1.junk (kernelRun0_B c i arg1 harg1 arg2 harg2 arg3 harg3 hc0 hc1 x0 xs0).1)
theorem scover0_B_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) (y : S2x64.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x64.size (by sl_kernel_rfl) y
def sout0_B_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec F S8x64x1024 .f32) (xs0 : Vec F S2x64 .f32) : Vec F S2x64 .f32 :=
  VS0_0.read (Elt F) (VS0_0.writes (Elt F) VS0_0.junk (kernelRun0_B c i arg1 harg1 arg2 harg2 arg3 harg3 hc0 hc1 x0 xs0).2.1)

theorem cover0_C_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) (y : S2x64.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x64.size (by sl_kernel_rfl) y
def out0_C_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) : Vec F S2x64 .f32 :=
  VO0_1.read (Elt F) (VO0_1.writes (Elt F) VO0_1.junk (kernelRun0_C c i arg1 harg1 arg2 harg2 arg3 harg3 hc0 hc1 x0 xs0).1)
theorem scover0_C_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) (y : S2x64.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x64.size (by sl_kernel_rfl) y
def sout0_C_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec F S8x64x1024 .f32) (xs0 : Vec F S2x64 .f32) : Vec F S2x64 .f32 :=
  VS0_0.read (Elt F) (VS0_0.writes (Elt F) VS0_0.junk (kernelRun0_C c i arg1 harg1 arg2 harg2 arg3 harg3 hc0 hc1 x0 xs0).2.1)

section
variable (V : (c : Dev nD) → (b : Ref sig .tc) → Buf (Elt F) ((c : Thread nD τ).loc b))

/-! ## What the result window's buffer and the scratch hold after each point -/

/-- After the body at position `n`: (the result window's buffer, the scratch). The first point is case A; a later
    point is case C when it is the last and case B otherwise, run on the scratch the point before left. -/
def outsAt0 (c : Dev nD) : (n : ℕ) → n < cfg0.N → Vec F S2x64 .f32 × Vec F S2x64 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 4 = 0 then
      if h1 : (n + 1) % 4 = 3 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 4 = 3 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the first point the class invariant (the scratch at anything); afterwards the scratch at
    what the point before left, beside the untouched rest and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ Rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the closed forms say which case the point is in; the invariant hands the body the scratch
    at what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      have hz : t.val = 0 := by omega
      rw [PhiS_castSucc V c t, PhiS_zero V c _ _ hz, PhiA0_eq]
      iintro ⟨⟨⟨HS0, HR⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _)
          iexact HR
        iexact Hg
      isplitl [Ho]; · iexact Ho
      isplitl [H0]; · iexact H0
      iexists _; iexact H1
  · have hz : t.val ≠ 0 := by omega
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      rw [PhiS_castSucc V c t, PhiS_pos V c _ _ hz]
      iintro ⟨⟨⟨HS0, HR⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, HR⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _)
          iexact HR
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the launch hands the pass is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 4 := N_0; omega)

end

end Cert.KernelIdeal.Hand

end
-- ==== Proof.KI.Reg1.lean ====
/-
  The affine pass: one grid point per branch `n` (16 of them).  At a point the body reads the whole input
  (32 × 64 × 1024), branch `n`'s row of the scale table and of the shift table (64 entries each), and stores
  `input · scale + shift`, the two rows spread along the channel axis, as the branch's slab of the result.
  Nothing is kept between points, so what a point leaves in the result window's buffer is one function of the three
  blocks it read.  Stated at a parameter `V`: the buffers' contents when the pass is entered.
-/
import proofs.«138456_j7902739824826_2_alg».proof.Proof.Gen.KernelIdeal.Launch
import proofs.«138456_j7902739824826_2_alg».proof.Proof.Gen.KernelIdeal.Skeleton
import proofs.«138456_j7902739824826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S32x64x1024 := Rect.unit (s := S32x64x1024) ![0, 0, 0] S32x64x1024.size inb_S32x64x1024_S32x64x1024_0_0_0
abbrev r1_1 : Rect S1x1x64 := Rect.unit (s := S1x1x64) ![0, 0, 0] S1x1x64.size inb_S1x1x64_S1x1x64_0_0_0
abbrev r1_3 : Rect S32x1x64x1024 := Rect.unit (s := S32x1x64x1024) ![0, 0, 0, 0] S32x1x64x1024.size inb_S32x1x64x1024_S32x1x64x1024_0_0_0_0

/-- The result window's staging buffer after the body: its one store, of the body's arithmetic on the three blocks. -/
def out1_3 (x0 : Vec F S32x64x1024 .f32) (x1 x2 : Vec F S1x1x64 .f32) : Vec F S32x1x64x1024 .f32 :=
  View.canon [⟨r1_3, k1_pay1 (View.ld x0 r1_0) (View.ld x1 r1_1) (View.ld x2 r1_1)⟩]

/-- The store is of the whole buffer, so it covers it. -/
theorem cover1_3 (p0 : Vec F S32x1x64x1024 .f32) (y : S32x1x64x1024.Idx) :
    ∃ pc ∈ ([⟨r1_3, p0⟩] : List (View.Piece (Elt F) S32x1x64x1024 .f32)), y ∈ pc.1.set :=
  View.cover_of_tiledL [⟨r1_3, p0⟩] S32x1x64x1024.size (by sl_kernel_rfl) y

set_option maxHeartbeats 4000000 in
/-- The body on whole staging memrefs: the inputs' at their contents, the result's at anything; it ends with the
    inputs' as they were and the result's at `out1_3` of them. -/
theorem sound_kernel1 (c : Dev nD) (E : Set ℕ) (i : grid1.Coords) (arg2 : Memref sig .tc .vmem S32x64x1024 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S32x1x64x1024 .f32) (harg5 : arg5.IsWhole)
    (x0 : Vec F S32x64x1024 .f32) (x1 x2 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__norm_affine_kernel i arg2 harg2 arg3 harg3 arg4 harg4 arg5 harg5) K := by
  simp only [cc1__norm_affine_kernel_eq_skeleton]; unfold cc1__norm_affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- After the body at point `t`: each input's buffer at its block, the result's at `out1_3` of the three blocks; the
    invariant is the class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The whole program as five segments — the reshape of the input, the statistics pass, the host lines that fold
  the statistics into the per-branch scale and shift tables, the affine pass, the final reshape — and its run: every
  weakly fair execution terminates and every unscoped buffer ends at the fold `W5` of the launch memory through
  the segments (a host stretch applies its operations; a pass leaves its arrays at what its write-backs leave and
  every other buffer as it found it).  The arguments are written by no segment, so they end as launched.
-/
import proofs.«138456_j7902739824826_2_alg».proof.Proof.KI.Reg0
import proofs.«138456_j7902739824826_2_alg».proof.Proof.KI.Reg1
import proofs.«138456_j7902739824826_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### A host stretch changes only the buffers it writes -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <| (W3_of m ρ c main_arg0 (by decide)).trans <|
    (W2_of_ne m ρ c main_arg0 (by decide)).trans <| (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The two passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    unscoped buffer ends at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- The run with the result named: the result buffer ends at `W5`'s value there, the arguments as launched. -/
theorem run_value : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.KI.ValChain.lean ====
/-
  The buffers the passes read and the result, followed through the host stretches.
  The input the passes read is the reshape of the argument (32 × 64 × 32 × 32 to 32 × 64 × 1024), untouched by the
  statistics pass.  The two tables the affine pass reads are pure functions of the statistics array (row 0 the mean,
  row 1 the reciprocal deviation) and of the affine arguments: scale = g · inv and shift = b − mean · scale, each laid
  out as 16 × 1 × 64.  The program's result is the reshape of what the affine pass leaves.
-/
import proofs.«138456_j7902739824826_2_alg».proof.Proof.KI.Run
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scale table as the host lines compose it from the statistics array and the first affine argument. -/
def hScale (st : FVec F S2x64 .f32) (gam : FVec F S16x64 .f32) : FVec F S16x1x64 .f32 :=
  shapeCast S16x1x64 (mulf gam (broadcastInDim S16x64 ![0, 1] bcast_S1x64_S16x64_0_1 (broadcastInDim S1x64 ![1] bcast_S64_S1x64_1 (shapeCast S64 (extractStridedSlice S1x64 ![1, 0] st slices_S2x64_S1x64_1_0) shapeCasts_S1x64_S64)))) shapeCasts_S16x64_S16x1x64
/-- The shift table likewise. -/
def hShift (st : FVec F S2x64 .f32) (gam bet : FVec F S16x64 .f32) : FVec F S16x1x64 .f32 :=
  shapeCast S16x1x64 (subf bet (mulf (broadcastInDim S16x64 ![0, 1] bcast_S1x64_S16x64_0_1 (broadcastInDim S1x64 ![1] bcast_S64_S1x64_1 (shapeCast S64 (extractStridedSlice S1x64 ![0, 0] st slices_S2x64_S1x64_0_0) shapeCasts_S1x64_S64))) (mulf gam (broadcastInDim S16x64 ![0, 1] bcast_S1x64_S16x64_0_1 (broadcastInDim S1x64 ![1] bcast_S64_S1x64_1 (shapeCast S64 (extractStridedSlice S1x64 ![1, 0] st slices_S2x64_S1x64_1_0) shapeCasts_S1x64_S64)))))) shapeCasts_S16x64_S16x1x64

variable (m : (ℓ : Loc nD τ sig) → Buf (Elt F) ℓ) (ρ : Dev nD → PrngReg)

/-- The reshaped input, as the first host line leaves it. -/
theorem W1_v0 (c : Dev nD) :
    (W1 m ρ c (Proc.devRef .tc main_v0) : S32x64x1024.Idx → Elt F .f32)
      = shapeCast S32x64x1024 (m ((c : Thread nD τ).loc main_arg0)) shapeCasts_S32x64x32x32_S32x64x1024 := by
  after_results; rfl

/-- The statistics pass leaves it alone: it is an input window's array. -/
theorem W2_v0 (c : Dev nD) : W2 m ρ c (Proc.devRef .tc main_v0) = W1 m ρ c (Proc.devRef .tc main_v0) :=
  (W2_arr m ρ c 0).trans (((dat0 (V1 m ρ) c).arrAt_in 0 rfl _).trans (A_eq0 (V1 m ρ) c 0))

/-- Nor do the host lines between the passes write it. -/
theorem W3_v0 (c : Dev nD) : W3 m ρ c (Proc.devRef .tc main_v0) = W1 m ρ c (Proc.devRef .tc main_v0) :=
  (W3_of m ρ c main_v0 (by decide)).trans (W2_v0 m ρ c)

theorem W2_arg1 (c : Dev nD) : W2 m ρ c (Proc.devRef .tc main_arg1) = m ((c : Thread nD τ).loc main_arg1) :=
  (W2_of_ne m ρ c main_arg1 (by decide)).trans ((W1_of m ρ c main_arg1 (by decide)).trans rfl)
theorem W2_arg2 (c : Dev nD) : W2 m ρ c (Proc.devRef .tc main_arg2) = m ((c : Thread nD τ).loc main_arg2) :=
  (W2_of_ne m ρ c main_arg2 (by decide)).trans ((W1_of m ρ c main_arg2 (by decide)).trans rfl)

/-- The statistics array after the statistics pass: what its write-backs leave. -/
theorem W2_v1 (c : Dev nD) : W2 m ρ c (Proc.devRef .tc main_v1) = (dat0 (V1 m ρ) c).arrAt 1 cfg0.N :=
  W2_arr m ρ c 1

/-- The scale table the affine pass reads. -/
theorem W3_v13 (c : Dev nD) :
    (W3 m ρ c (Proc.devRef .tc main_v13) : S16x1x64.Idx → Elt F .f32)
      = hScale (W2 m ρ c (Proc.devRef .tc main_v1)) (W2 m ρ c (Proc.devRef .tc main_arg1)) := by
  unfold hScale; after_results; rfl

/-- The shift table the affine pass reads. -/
theorem W3_v14 (c : Dev nD) :
    (W3 m ρ c (Proc.devRef .tc main_v14) : S16x1x64.Idx → Elt F .f32)
      = hShift (W2 m ρ c (Proc.devRef .tc main_v1)) (W2 m ρ c (Proc.devRef .tc main_arg1)) (W2 m ρ c (Proc.devRef .tc main_arg2)) := by
  unfold hShift; after_results; rfl

/-- The affine pass's result array: what its write-backs leave. -/
theorem W4_v15 (c : Dev nD) : W4 m ρ c (Proc.devRef .tc main_v15) = (dat1 (V3 m ρ) c).arrAt 3 cfg1.N :=
  W4_arr m ρ c 3

/-- The program's result: the last reshape of it. -/
theorem W5_v16 (c : Dev nD) :
    (W5 m ρ c (Proc.devRef .tc main_v16) : S32x1024x32x32.Idx → Elt F .f32)
      = shapeCast S32x1024x32x32 (W4 m ρ c (Proc.devRef .tc main_v15)) shapeCasts_S32x16x64x1024_S32x1024x32x32 := by
  after_results; rfl

end Cert.KernelIdeal.Hand

end
-- ==== Proof.KI.ValRows.lean ====
/-
  The statistics pass's buffers read at an index, first part.
  The scratch and the result window are 2 × 64 buffers written one row at a time: row 0 through the rectangle at
  offset (0, 0), row 1 through the one at offset (1, 0), each of extent 1 × 64.  The contents a list of such row stores
  leaves, read at (r, ch), is the last row-r store's payload at (0, ch).  The input window's block at point t is rows
  8t … 8t+7 of the array.  The statistics array is one block, written back once, at the last point.
-/
import proofs.«138456_j7902739824826_2_alg».proof.Proof.KI.Reg0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The two row rectangles of a 2 × 64 buffer and the whole of it. -/
abbrev R0 : Rect S2x64 := Rect.unit (s := S2x64) ![0, 0] S1x64.size inb_S2x64_S1x64_0_0
abbrev R1 : Rect S2x64 := Rect.unit (s := S2x64) ![1, 0] S1x64.size inb_S2x64_S1x64_1_0
abbrev RW : Rect S2x64 := Rect.unit (s := S2x64) ![0, 0] S2x64.size inb_S2x64_S2x64_0_0

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0's rectangle places (0, ch) at (0, ch); row 1's places it at (1, ch). -/
theorem R0_idx (ch : Fin 64) : R0.emb (ix2 (0 : Fin 1) ch) = ix2 (0 : Fin 2) ch := funext fun a => Fin.ext (by
  match a with
  | ⟨0, _⟩ => show 0 + 1 * 0 = 0; omega
  | ⟨1, _⟩ => show 0 + 1 * ch.val = ch.val; omega)
theorem R1_idx (ch : Fin 64) : R1.emb (ix2 (0 : Fin 1) ch) = ix2 (1 : Fin 2) ch := funext fun a => Fin.ext (by
  match a with
  | ⟨0, _⟩ => show 1 + 1 * 0 = 1; omega
  | ⟨1, _⟩ => show 0 + 1 * ch.val = ch.val; omega)

theorem row0_not_mem_R1 (ch : Fin 64) : ix2 (0 : Fin 2) ch ∉ R1.set := by
  rw [Rect.mem_set_unit]; intro h
  have h1 : (1 : ℕ) ≤ 0 := (h 0).1
  omega
theorem row1_not_mem_R0 (ch : Fin 64) : ix2 (1 : Fin 2) ch ∉ R0.set := by
  rw [Rect.mem_set_unit]; intro h
  have h1 : (1 : ℕ) < 0 + 1 := (h 0).2
  omega

section
variable {Val : EltTy → Type} [∀ e, Nonempty (Val e)]

/-- After a row-1 store then (earlier) a row-0 store, whatever came before: row 1 reads the first's payload, -/
theorem canon_rows_1 (a b : S1x64.Idx → Val .f32) (L : List (View.Piece Val S2x64 .f32)) (ch : Fin 64) :
    View.canon ((⟨R1, a⟩ : View.Piece Val S2x64 .f32) :: ⟨R0, b⟩ :: L) (ix2 (1 : Fin 2) ch) = a (ix2 (0 : Fin 1) ch) := by
  have e : ix2 (1 : Fin 2) ch = R1.emb (ix2 (0 : Fin 1) ch) := (R1_idx ch).symm
  rw [e]
  exact View.canon_cons_emb R1 a (⟨R0, b⟩ :: L) (ix2 (0 : Fin 1) ch)
/-- and row 0 the second's. -/
theorem canon_rows_0 (a b : S1x64.Idx → Val .f32) (L : List (View.Piece Val S2x64 .f32)) (ch : Fin 64) :
    View.canon ((⟨R1, a⟩ : View.Piece Val S2x64 .f32) :: ⟨R0, b⟩ :: L) (ix2 (0 : Fin 2) ch) = b (ix2 (0 : Fin 1) ch) := by
  refine (View.canon_cons_of_not_mem (⟨R1, a⟩ : View.Piece Val S2x64 .f32) (⟨R0, b⟩ :: L) (row0_not_mem_R1 ch)).trans ?_
  have e : ix2 (0 : Fin 2) ch = R0.emb (ix2 (0 : Fin 1) ch) := (R0_idx ch).symm
  rw [e]
  exact View.canon_cons_emb R0 b L (ix2 (0 : Fin 1) ch)
/-- A row-0 store does not change what row 1 reads. -/
theorem canon_skip_R0 (b : S1x64.Idx → Val .f32) (L : List (View.Piece Val S2x64 .f32)) (ch : Fin 64) :
    View.canon ((⟨R0, b⟩ : View.Piece Val S2x64 .f32) :: L) (ix2 (1 : Fin 2) ch) = View.canon L (ix2 (1 : Fin 2) ch) :=
  View.canon_cons_of_not_mem (⟨R0, b⟩ : View.Piece Val S2x64 .f32) L (row1_not_mem_R0 ch)
end

/-- A load of row 0 (row 1) of contents `X` reads `X` at (0, ch) ((1, ch)). -/
theorem ld_R0 {Val : EltTy → Type} (X : S2x64.Idx → Val .f32) (ch : Fin 64) : View.ld X R0 (ix2 (0 : Fin 1) ch) = X (ix2 (0 : Fin 2) ch) :=
  congrArg X (R0_idx ch)
theorem ld_R1 {Val : EltTy → Type} (X : S2x64.Idx → Val .f32) (ch : Fin 64) : View.ld X R1 (ix2 (0 : Fin 1) ch) = X (ix2 (1 : Fin 2) ch) :=
  congrArg X (R1_idx ch)

section
variable (V : (c : Dev nD) → (b : Ref sig .tc) → Buf (Elt F) ((c : Thread nD τ).loc b))

/-- The input window's index map: block `t` along the sample axis, block 0 along the others. -/
theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The block the body reads at point `t`: samples 8t … 8t+7 of the array. -/
theorem iblk0_apply (c : Dev nD) (t : Fin cfg0.N) (b : Fin 8) (ch : Fin 64) (k : Fin 1024) :
    (iblk0 V c 0 t : S8x64x1024.Idx → Elt F .f32) (ix3 b ch k)
      = (V c main_v0 : S32x64x1024.Idx → Elt F .f32) (ix3 (⟨t.val * 8 + b.val, by have := t.isLt; have hN : cfg0.N = 4 := N_0; have := b.isLt; omega⟩ : Fin 32) ch k) := by
  obtain ⟨e0, e1, e2⟩ := idx_facts0 t
  unfold iblk0
  rw [View.read_apply]
  show V c main_v0 _ = V c main_v0 _
  congr 1
  funext a
  apply Fin.ext
  match a with
  | ⟨0, _⟩ => show win0_0.index t (0 : Fin 3) * 8 + 1 * b.val = t.val * 8 + b.val; rw [e0]; omega
  | ⟨1, _⟩ => show win0_0.index t (1 : Fin 3) * 64 + 1 * ch.val = ch.val; rw [e1]; omega
  | ⟨2, _⟩ => show win0_0.index t (2 : Fin 3) * 1024 + 1 * k.val = k.val; rw [e2]; omega

/-- The statistics array after the pass: what the last point leaves in the result window's buffer. -/
abbrev statsArr (c : Dev nD) : Buf (Elt F) ((c : Thread nD τ).loc main_v1) :=
  (outsAt0 V c 3 (by rw [show cfg0.N = 4 from N_0]; decide)).1

/-- The one write-back, at the last point, writes it: the block is the whole array. -/
theorem flushed0_eq (c : Dev nD) (t : Fin cfg0.N) (hf : (cfg0.win 1).flush t = true) :
    (dat0 V c).flushed 1 t = ((cfg0.win 1).blk t).view.read (Elt F) (statsArr V c) := by
  have hN : cfg0.N = 4 := N_0
  have h3 : t.val = 3 := by have := (flush0_1 t).mp hf; have := t.isLt; omega
  obtain rfl : t = t0_3 := Fin.ext h3
  show (cfg0.win 1).cut (grid0.coords t0_3) ((dat0 V c).after 1 t0_3) = _
  rw [after0_1]
  have hz' : (fun a => win0_1.index t0_3 a * main_v1.ty.shape.size a) = fun _ => 0 := funext fun a => by fin_cases a <;> decide
  exact (Memref.read_access_unit_zero (Elt F) main_v1 hz' (fun a => by rw [congrFun hz' a]; simp) (statsArr V c)).symm

/-- So the statistics array ends holding what the last point left. -/
theorem final0 (c : Dev nD) : (dat0 V c).arrAt 1 cfg0.N = statsArr V c :=
  (dat0 V c).arrAt_eq_of_cover 1 (statsArr V c) (flushed0_eq V c) fun i =>
    ⟨t0_3, (flush0_1 t0_3).mpr rfl, by
      show i ∈ ((View.whole main_v1).slice (win0_1.rect t0_3)).set
      rw [View.set_slice_whole, Rect.mem_set_unit]
      intro a
      have h0 : (i 0 : Nat) < 2 := (i 0).isLt
      have h1 : (i 1 : Nat) < 64 := (i 1).isLt
      match a with
      | ⟨0, _⟩ => show win0_1.index t0_3 0 * win0_1.size 0 ≤ (i 0 : Nat) ∧ (i 0 : Nat) < win0_1.index t0_3 0 * win0_1.size 0 + win0_1.xsize (grid0.coords t0_3) 0
                  rw [show win0_1.index t0_3 0 * win0_1.size 0 = 0 from by decide +kernel, show win0_1.xsize (grid0.coords t0_3) 0 = 2 from by decide +kernel]; omega
      | ⟨1, _⟩ => show win0_1.index t0_3 1 * win0_1.size 1 ≤ (i 1 : Nat) ∧ (i 1 : Nat) < win0_1.index t0_3 1 * win0_1.size 1 + win0_1.xsize (grid0.coords t0_3) 1
                  rw [show win0_1.index t0_3 1 * win0_1.size 1 = 0 from by decide +kernel, show win0_1.xsize (grid0.coords t0_3) 1 = 64 from by decide +kernel]; omega⟩
end

end Cert.KernelIdeal.Hand

end
-- ==== Proof.Spec.lean ====
/-
  The specification both programs are compared against.

  Write `xr` for the input viewed as 32 samples × 64 channels × 1024 positions, `g` and `b` for the 16 × 64 affine
  tables.  Per channel `c`: the sum `S1 c` of the channel's 32·1024 entries and the sum `S2 c` of their squares;
  the mean `S1 c · 2⁻¹⁵` (32·1024 = 2¹⁵, so the factor is the exact reciprocal of the count); the variance in the
  form "mean of squares minus squared mean"; its reciprocal square root after adding ε.  Per branch `n` the affine
  map is folded into one scale and one shift, and the result at (sample, branch, channel, position) is
  `xr · scale + shift`.  Everything is read on the extended reals.
-/
import Idealize.ShloMosaic.PureOps.Ideal
import Idealize.ShloMosaic.Lib.ValueIdx

noncomputable section

namespace Cert.Spec

open Idealize.ShloMosaic Idealize.ShloMosaic.ValueIdx
open scoped BigOperators

/-- The input as samples × channels × positions. -/
abbrev XR := (⟨3, ![32, 64, 1024]⟩ : Shape).Idx → EReal
/-- A 16 × 64 table. -/
abbrev Tab := (⟨2, ![16, 64]⟩ : Shape).Idx → EReal
/-- The result as samples × branches × channels × positions. -/
abbrev Out := (⟨4, ![32, 16, 64, 1024]⟩ : Shape).Idx → EReal

/-- 2⁻¹⁵ as the kernel spells it. -/
abbrev w15 : EReal := Ideal.ofBits .f32 0x38000000#32
/-- ε as both programs spell it. -/
abbrev eps : EReal := Ideal.ofBits .f32 0x3727C5AC#32

/-- A channel's sum over samples and positions. -/
def S1 (xr : XR) (c : Fin 64) : EReal := ∑ s : Fin 32, ∑ k : Fin 1024, xr (ix3 s c k)
/-- A channel's sum of squares over samples and positions. -/
def S2 (xr : XR) (c : Fin 64) : EReal := ∑ s : Fin 32, ∑ k : Fin 1024, xr (ix3 s c k) * xr (ix3 s c k)
/-- A channel's mean. -/
def mean (xr : XR) (c : Fin 64) : EReal := S1 xr c * w15
/-- A channel's reciprocal standard deviation: variance as mean of squares minus squared mean. -/
def inv (xr : XR) (c : Fin 64) : EReal := Ideal.rsqrt (S2 xr c * w15 - mean xr c * mean xr c + eps)
/-- Branch `n`'s scale at channel `c`. -/
def scale (xr : XR) (g : Tab) (n : Fin 16) (c : Fin 64) : EReal := g (ix2 n c) * inv xr c
/-- Branch `n`'s shift at channel `c`. -/
def shift (xr : XR) (g b : Tab) (n : Fin 16) (c : Fin 64) : EReal := b (ix2 n c) - mean xr c * scale xr g n c
/-- The result. -/
def G (xr : XR) (g b : Tab) : Out :=
  fun j => xr (ix3 (j 0) (j 2) (j 3)) * scale xr g (j 1) (j 2) + shift xr g b (j 1) (j 2)

end Cert.Spec

end
-- ==== Proof.KernelPays.lean ====
/-
  The kernel's pure values, read at one element.

  First pass, on a block of eight samples: the block's contribution to a channel is the sum over positions of the sum
  over the block's samples (of the entries, and of their squares), added to the running total; the running totals
  start at zero.  After the last block the mean is the total times 2⁻¹⁵ and the reciprocal deviation is the reciprocal
  square root of (total of squares) · 2⁻¹⁵ − mean² + ε.  Second pass: each entry times the channel's scale plus the
  channel's shift.  The reshapes in between only add or drop axes of length one, and a value broadcast along the sample
  and position axes is read at its channel.
-/
import proofs.«138456_j7902739824826_2_alg».proof.Proof.Gen.KernelIdeal.Skeleton
import proofs.«138456_j7902739824826_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pays

open Idealize.ShloMosaic Idealize.ShloMosaic.ValueIdx Cert.KernelIdeal Cert.KernelIdeal.Gen
open scoped BigOperators

/-- The running totals start at zero. -/
theorem pay1_apply (j : S2x64.Idx) : k0_pay1 (F := Ideal) j = 0 := by
  unfold k0_pay1
  rw [shapeCast_self]
  exact Ideal.ofBits_zero_f32

/-- The block as loaded. -/
theorem pay2_eq (x0 : Vec Ideal S8x64x1024 .f32) : k0_pay2 (F := Ideal) x0 = x0 := by
  unfold k0_pay2
  exact shapeCast_self _ _

/-- Summing a block over its samples and then over the positions: at channel ch, the sum over positions of the sum
    over the block's eight samples. -/
theorem reduce2_apply (y : FVec Ideal S8x64x1024 .f32) (ch : Fin 64)
    (h0 : S8x64x1024.Reduces [0] S64x1024) (h1 : S64x1024.Reduces [1] S64)
    (hφ : FKind.Formats .f32) (hacc : (0x00000000#32 : BitVec 32) = FKind.add.neutral .f32 hφ) :
    multiReduction .add [1] S64 (multiReduction .add [0] S64x1024 y 0x00000000#32 h0 hφ hacc) 0x00000000#32 h1 hφ hacc
        (ix1 ch)
      = ∑ k : Fin 1024, ∑ b : Fin 8, y (ix3 b ch k) := by
  refine (Ideal.multiReduction_add_single _ 0x00000000#32 h1 hφ hacc (ix1 ch)).trans ?_
  show ∑ k : Fin 1024, multiReduction .add [0] S64x1024 y 0x00000000#32 h0 hφ hacc (h1.lift (ix1 ch) k) = _
  refine Finset.sum_congr rfl fun k _ => ?_
  refine (Ideal.multiReduction_add_single y 0x00000000#32 h0 hφ hacc _).trans ?_
  show ∑ b : Fin 8, y (h0.lift (h1.lift (ix1 ch) k) b) = _
  refine Finset.sum_congr rfl fun b _ => congrArg y ?_
  funext c
  match c with
  | ⟨0, _⟩ => exact Fin.ext rfl
  | ⟨1, _⟩ => exact Fin.ext rfl
  | ⟨2, _⟩ => exact Fin.ext rfl

/-- The running total of a channel after a block. -/
theorem pay3_apply (x0 : Vec Ideal S8x64x1024 .f32) (v10 : Vec Ideal S1x64 .f32) (ch : Fin 64) :
    k0_pay3 (F := Ideal) x0 v10 (ix2 0 ch) = v10 (ix2 0 ch) + ∑ k : Fin 1024, ∑ b : Fin 8, x0 (ix3 b ch k) := by
  unfold k0_pay3
  rw [pay2_eq]
  refine (shapeCast_a_1a_apply _ _ (0 : Fin 1) ch).trans ?_
  refine congrArg₂ (· + ·) (shapeCast_1a_a_apply v10 _ ch) ?_
  exact reduce2_apply x0 ch _ _ _ _

/-- The running total of squares of a channel after a block. -/
theorem pay4_apply (x0 : Vec Ideal S8x64x1024 .f32) (v16 : Vec Ideal S1x64 .f32) (ch : Fin 64) :
    k0_pay4 (F := Ideal) x0 v16 (ix2 0 ch)
      = v16 (ix2 0 ch) + ∑ k : Fin 1024, ∑ b : Fin 8, x0 (ix3 b ch k) * x0 (ix3 b ch k) := by
  unfold k0_pay4
  rw [pay2_eq]
  refine (shapeCast_a_1a_apply _ _ (0 : Fin 1) ch).trans ?_
  refine congrArg₂ (· + ·) (shapeCast_1a_a_apply v16 _ ch) ?_
  exact reduce2_apply (mulf x0 x0) ch _ _ _ _

/-- The mean of a channel: the total times 2⁻¹⁵. -/
theorem pay5_apply (v25 : Vec Ideal S1x64 .f32) (ch : Fin 64) :
    k0_pay5 (F := Ideal) v25 (ix1 ch) = v25 (ix2 0 ch) * Cert.Spec.w15 := by
  unfold k0_pay5
  show shapeCast S64 v25 _ (ix1 ch) * Ideal.ofBits .f32 0x38000000#32 = _
  rw [shapeCast_1a_a_apply]

/-- The mean, as stored. -/
theorem pay6_apply (v25 : Vec Ideal S1x64 .f32) (ch : Fin 64) :
    k0_pay6 (F := Ideal) v25 (ix2 0 ch) = v25 (ix2 0 ch) * Cert.Spec.w15 := by
  unfold k0_pay6
  exact (shapeCast_a_1a_apply _ _ (0 : Fin 1) ch).trans (pay5_apply v25 ch)

/-- The reciprocal deviation, as stored. -/
theorem pay7_apply (v25 v29 : Vec Ideal S1x64 .f32) (ch : Fin 64) :
    k0_pay7 (F := Ideal) v25 v29 (ix2 0 ch)
      = Ideal.rsqrt (v29 (ix2 0 ch) * Cert.Spec.w15 - (v25 (ix2 0 ch) * Cert.Spec.w15) * (v25 (ix2 0 ch) * Cert.Spec.w15)
          + Cert.Spec.eps) := by
  unfold k0_pay7
  refine (shapeCast_a_1a_apply _ _ (0 : Fin 1) ch).trans ?_
  show Ideal.rsqrt (shapeCast S64 v29 _ (ix1 ch) * Ideal.ofBits .f32 0x38000000#32
      - k0_pay5 (F := Ideal) v25 (ix1 ch) * k0_pay5 (F := Ideal) v25 (ix1 ch) + Ideal.ofBits .f32 0x3727C5AC#32) = _
  rw [shapeCast_1a_a_apply, pay5_apply]

/-- A per-channel value carried as [1, 1, 64], spread along samples and positions, is read at its channel. -/
theorem chanSpread_apply (v : Vec Ideal S1x1x64 .f32) (h1 : S1x1x64.ShapeCasts S1x64) (h2 : S1x64.ShapeCasts S64)
    (h3 : S64.ShapeCasts S1x64x1) (h4 : S1x64x1.Broadcasts S32x64x1024) (s : Fin 32) (ch : Fin 64) (k : Fin 1024) :
    broadcastTo S32x64x1024 (shapeCast S1x64x1 (shapeCast S64 (shapeCast S1x64 v h1) h2) h3) h4 (ix3 s ch k)
      = v (ix3 0 0 ch) := by
  refine (broadcastTo_apply _ h4 (ix3 s ch k) (ix3 (0 : Fin 1) ch (0 : Fin 1)) ?_).trans ?_
  · intro a
    match a with
    | ⟨0, _⟩ => show 0 = if (1 : ℕ) = 1 then 0 else s.val; rw [if_pos rfl]
    | ⟨1, _⟩ => show ch.val = if (64 : ℕ) = 1 then 0 else ch.val; rw [if_neg (by decide)]
    | ⟨2, _⟩ => show 0 = if (1 : ℕ) = 1 then 0 else k.val; rw [if_pos rfl]
  · refine (shapeCast_apply _ h3 (ix3 (0 : Fin 1) ch (0 : Fin 1)) (ix1 ch) ?_).trans ?_
    · rw [Shape.rowMajor_val_one, Shape.rowMajor_val_three]
      show ch.val = (0 * 64 + ch.val) * 1 + 0
      omega
    · rw [shapeCast_1a_a_apply, shapeCast_1ab_ab_apply]

/-- The second pass at an element: entry times scale plus shift. -/
theorem k1pay_apply (v0 : Vec Ideal S32x64x1024 .f32) (v2 v5 : Vec Ideal S1x1x64 .f32) (s : Fin 32) (ch : Fin 64)
    (k : Fin 1024) :
    k1_pay1 (F := Ideal) v0 v2 v5 (ix4 s 0 ch k) = v0 (ix3 s ch k) * v2 (ix3 0 0 ch) + v5 (ix3 0 0 ch) := by
  unfold k1_pay1
  refine (shapeCast_apply _ _ (ix4 s (0 : Fin 1) ch k) (ix3 s ch k) ?_).trans ?_
  · rw [Shape.rowMajor_val_three, Shape.rowMajor_val_four]
    show (s.val * 64 + ch.val) * 1024 + k.val = ((s.val * 1 + 0) * 64 + ch.val) * 1024 + k.val
    omega
  · refine congrArg₂ (· + ·) (congrArg₂ (· * ·) ?_ (chanSpread_apply v2 _ _ _ _ s ch k)) (chanSpread_apply v5 _ _ _ _ s ch k)
    rw [shapeCast_self]

end Cert.KernelIdeal.Pays

end
-- ==== Proof.KI.ValPieces.lean ====
/-
  The statistics pass's buffers read at an index, second part: what each case's stores leave, at (row, channel).
  Write s(x) for a block's per-channel sum over its 8 samples and 1024 positions, and q(x) for the same sum of squares.
  A middle or last block leaves in the scratch (old row 0 + s, old row 1 + q); the first block leaves (0 + s, 0 + q),
  the zero being the fill it has just stored.  The last block then stores into the result window
  row 0 = (row 0 of the scratch) · 2⁻¹⁵ and row 1 = rsqrt((row 1) · 2⁻¹⁵ − (row 0 · 2⁻¹⁵)² + ε).
-/
import proofs.«138456_j7902739824826_2_alg».proof.Proof.KI.ValRows
import proofs.«138456_j7902739824826_2_alg».proof.Proof.KernelPays

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pays
open scoped BigOperators

/-- A block's per-channel sum and sum of squares. -/
def bs1 (x0 : Vec Ideal S8x64x1024 .f32) (ch : Fin 64) : EReal := ∑ k : Fin 1024, ∑ b : Fin 8, x0 (ix3 b ch k)
def bs2 (x0 : Vec Ideal S8x64x1024 .f32) (ch : Fin 64) : EReal := ∑ k : Fin 1024, ∑ b : Fin 8, x0 (ix3 b ch k) * x0 (ix3 b ch k)

/-! ## A middle block -/

theorem soutB_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec Ideal S8x64x1024 .f32) (xs0 : Vec Ideal S2x64 .f32) (ch : Fin 64) :
    sout0_B_0 (F := Ideal) c i arg1 harg1 arg2 harg2 arg3 harg3 hc0 hc1 x0 xs0 (ix2 (0 : Fin 2) ch) = xs0 (ix2 (0 : Fin 2) ch) + bs1 x0 ch := by
  unfold sout0_B_0
  rw [View.read_writes_eq_canon _ _ _ (scover0_B_0 c i arg1 harg1 arg2 harg2 arg3 harg3 hc0 hc1 x0 xs0)]
  unfold kernelRun0_B
  dsimp only
  sl_unfold_words
  simp only [View.readAt_eq_ld, harg1.read_unread, harg3.read_unread, View.ld_unit_zero (S := S8x64x1024) hz3]
  refine (canon_rows_0 _ _ [] ch).trans ?_
  rw [pay3_apply]
  exact congrArg (· + bs1 x0 ch) (ld_R0 (Val := Elt Ideal) xs0 ch)

theorem soutB_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : ¬cond0_1 i)
    (x0 : Vec Ideal S8x64x1024 .f32) (xs0 : Vec Ideal S2x64 .f32) (ch : Fin 64) :
    sout0_B_0 (F := Ideal) c i arg1 harg1 arg2 harg2 arg3 harg3 hc0 hc1 x0 xs0 (ix2 (1 : Fin 2) ch) = xs0 (ix2 (1 : Fin 2) ch) + bs2 x0 ch := by
  unfold sout0_B_0
  rw [View.read_writes_eq_canon _ _ _ (scover0_B_0 c i arg1 harg1 arg2 harg2 arg3 harg3 hc0 hc1 x0 xs0)]
  unfold kernelRun0_B
  dsimp only
  sl_unfold_words
  simp only [View.readAt_eq_ld, harg1.read_unread, harg3.read_unread, View.ld_unit_zero (S := S8x64x1024) hz3]
  refine (canon_rows_1 _ _ [] ch).trans ?_
  rw [pay4_apply]
  exact congrArg (· + bs2 x0 ch) (ld_R1 (Val := Elt Ideal) xs0 ch)

/-! ## The last block -/

theorem soutC_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec Ideal S8x64x1024 .f32) (xs0 : Vec Ideal S2x64 .f32) (ch : Fin 64) :
    sout0_C_0 (F := Ideal) c i arg1 harg1 arg2 harg2 arg3 harg3 hc0 hc1 x0 xs0 (ix2 (0 : Fin 2) ch) = xs0 (ix2 (0 : Fin 2) ch) + bs1 x0 ch := by
  unfold sout0_C_0
  rw [View.read_writes_eq_canon _ _ _ (scover0_C_0 c i arg1 harg1 arg2 harg2 arg3 harg3 hc0 hc1 x0 xs0)]
  unfold kernelRun0_C
  dsimp only
  sl_unfold_words
  simp only [View.readAt_eq_ld, harg1.read_unread, harg3.read_unread, View.ld_unit_zero (S := S8x64x1024) hz3]
  refine (canon_rows_0 _ _ [] ch).trans ?_
  rw [pay3_apply]
  exact congrArg (· + bs1 x0 ch) (ld_R0 (Val := Elt Ideal) xs0 ch)

theorem soutC_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec Ideal S8x64x1024 .f32) (xs0 : Vec Ideal S2x64 .f32) (ch : Fin 64) :
    sout0_C_0 (F := Ideal) c i arg1 harg1 arg2 harg2 arg3 harg3 hc0 hc1 x0 xs0 (ix2 (1 : Fin 2) ch) = xs0 (ix2 (1 : Fin 2) ch) + bs2 x0 ch := by
  unfold sout0_C_0
  rw [View.read_writes_eq_canon _ _ _ (scover0_C_0 c i arg1 harg1 arg2 harg2 arg3 harg3 hc0 hc1 x0 xs0)]
  unfold kernelRun0_C
  dsimp only
  sl_unfold_words
  simp only [View.readAt_eq_ld, harg1.read_unread, harg3.read_unread, View.ld_unit_zero (S := S8x64x1024) hz3]
  refine (canon_rows_1 _ _ [] ch).trans ?_
  rw [pay4_apply]
  exact congrArg (· + bs2 x0 ch) (ld_R1 (Val := Elt Ideal) xs0 ch)

/-- What the last block reads back of the scratch it has just updated: the two updated rows. -/
theorem readback_0 (x0 : Vec Ideal S8x64x1024 .f32) (xs0 : Vec Ideal S2x64 .f32) (ch : Fin 64) :
    View.canon ([⟨R1, k0_pay4 (F := Ideal) x0 (View.ld xs0 R1)⟩, ⟨R0, k0_pay3 (F := Ideal) x0 (View.ld xs0 R0)⟩] : List (View.Piece (Elt Ideal) S2x64 .f32))
      (R0.toLoadRect.idx (ix2 (0 : Fin 1) ch)) = xs0 (ix2 (0 : Fin 2) ch) + bs1 x0 ch := by
  rw [show R0.toLoadRect.idx (ix2 (0 : Fin 1) ch) = ix2 (0 : Fin 2) ch from R0_idx ch]
  refine (canon_rows_0 _ _ [] ch).trans ?_
  rw [pay3_apply]
  exact congrArg (· + bs1 x0 ch) (ld_R0 (Val := Elt Ideal) xs0 ch)
theorem readback_1 (x0 : Vec Ideal S8x64x1024 .f32) (xs0 : Vec Ideal S2x64 .f32) (ch : Fin 64) :
    View.canon ([⟨R1, k0_pay4 (F := Ideal) x0 (View.ld xs0 R1)⟩, ⟨R0, k0_pay3 (F := Ideal) x0 (View.ld xs0 R0)⟩] : List (View.Piece (Elt Ideal) S2x64 .f32))
      (R1.toLoadRect.idx (ix2 (0 : Fin 1) ch)) = xs0 (ix2 (1 : Fin 2) ch) + bs2 x0 ch := by
  rw [show R1.toLoadRect.idx (ix2 (0 : Fin 1) ch) = ix2 (1 : Fin 2) ch from R1_idx ch]
  refine (canon_rows_1 _ _ [] ch).trans ?_
  rw [pay4_apply]
  exact congrArg (· + bs2 x0 ch) (ld_R1 (Val := Elt Ideal) xs0 ch)

/-- The mean row the last block stores. -/
theorem outC_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec Ideal S8x64x1024 .f32) (xs0 : Vec Ideal S2x64 .f32) (ch : Fin 64) :
    out0_C_1 (F := Ideal) c i arg1 harg1 arg2 harg2 arg3 harg3 hc0 hc1 x0 xs0 (ix2 (0 : Fin 2) ch) = (xs0 (ix2 (0 : Fin 2) ch) + bs1 x0 ch) * Cert.Spec.w15 := by
  unfold out0_C_1
  rw [View.read_writes_eq_canon _ _ _ (cover0_C_1 c i arg1 harg1 arg2 harg2 arg3 harg3 hc0 hc1 x0 xs0)]
  unfold kernelRun0_C
  dsimp only
  sl_unfold_words
  simp only [View.readAt_eq_ld, harg1.read_unread, harg3.read_unread, View.ld_unit_zero (S := S8x64x1024) hz3, View.readCov_eq_canon']
  refine (canon_rows_0 _ _ [] ch).trans ?_
  rw [pay6_apply]
  exact congrArg (· * Cert.Spec.w15) (readback_0 x0 xs0 ch)

/-- The reciprocal-deviation row the last block stores. -/
theorem outC_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : ¬cond0_0 i) (hc1 : cond0_1 i)
    (x0 : Vec Ideal S8x64x1024 .f32) (xs0 : Vec Ideal S2x64 .f32) (ch : Fin 64) :
    out0_C_1 (F := Ideal) c i arg1 harg1 arg2 harg2 arg3 harg3 hc0 hc1 x0 xs0 (ix2 (1 : Fin 2) ch)
      = Ideal.rsqrt ((xs0 (ix2 (1 : Fin 2) ch) + bs2 x0 ch) * Cert.Spec.w15
          - ((xs0 (ix2 (0 : Fin 2) ch) + bs1 x0 ch) * Cert.Spec.w15) * ((xs0 (ix2 (0 : Fin 2) ch) + bs1 x0 ch) * Cert.Spec.w15) + Cert.Spec.eps) := by
  unfold out0_C_1
  rw [View.read_writes_eq_canon _ _ _ (cover0_C_1 c i arg1 harg1 arg2 harg2 arg3 harg3 hc0 hc1 x0 xs0)]
  unfold kernelRun0_C
  dsimp only
  sl_unfold_words
  simp only [View.readAt_eq_ld, harg1.read_unread, harg3.read_unread, View.ld_unit_zero (S := S8x64x1024) hz3, View.readCov_eq_canon']
  refine (canon_rows_1 _ _ [] ch).trans ?_
  rw [pay7_apply]
  have e0 := readback_0 x0 xs0 ch
  have e1 := readback_1 x0 xs0 ch
  rw [e0, e1]

/-! ## The first block -/

theorem soutA_0 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec Ideal S8x64x1024 .f32) (ch : Fin 64) :
    sout0_A_0 (F := Ideal) c i arg1 harg1 arg2 harg2 arg3 harg3 hc0 hc1 x0 (ix2 (0 : Fin 2) ch) = 0 + bs1 x0 ch := by
  unfold sout0_A_0
  rw [View.read_writes_eq_canon _ _ _ (scover0_A_0 c i arg1 harg1 arg2 harg2 arg3 harg3 hc0 hc1 x0)]
  unfold kernelRun0_A
  dsimp only
  sl_unfold_words
  simp only [View.readAt_eq_ld, harg1.read_unread, View.ld_unit_zero (S := S8x64x1024) hz3, View.readCov_eq_canon']
  refine (canon_rows_0 _ _ _ ch).trans ?_
  rw [pay3_apply]
  refine congrArg (· + bs1 x0 ch) ?_
  show View.canon _ (R0.toLoadRect.idx (ix2 (0 : Fin 1) ch)) = 0
  rw [View.canon_unit_zero hz2]
  exact pay1_apply _

theorem soutA_1 (c : Dev nD) (i : grid0.Coords) (arg1 : Memref sig .tc .vmem S8x64x1024 .f32) (harg1 : arg1.IsWhole) (arg2 : Memref sig .tc .vmem S2x64 .f32) (harg2 : arg2.IsWhole) (arg3 : Memref sig .tc .vmem S2x64 .f32) (harg3 : arg3.IsWhole) (hc0 : cond0_0 i) (hc1 : ¬cond0_1 i)
    (x0 : Vec Ideal S8x64x1024 .f32) (ch : Fin 64) :
    sout0_A_0 (F := Ideal) c i arg1 harg1 arg2 harg2 arg3 harg3 hc0 hc1 x0 (ix2 (1 : Fin 2) ch) = 0 + bs2 x0 ch := by
  unfold sout0_A_0
  rw [View.read_writes_eq_canon _ _ _ (scover0_A_0 c i arg1 harg1 arg2 harg2 arg3 harg3 hc0 hc1 x0)]
  unfold kernelRun0_A
  dsimp only
  sl_unfold_words
  simp only [View.readAt_eq_ld, harg1.read_unread, View.ld_unit_zero (S := S8x64x1024) hz3, View.readCov_eq_canon']
  refine (canon_rows_1 _ _ _ ch).trans ?_
  rw [pay4_apply]
  refine congrArg (· + bs2 x0 ch) ?_
  show View.canon _ (R1.toLoadRect.idx (ix2 (0 : Fin 1) ch)) = 0
  rw [show R1.toLoadRect.idx (ix2 (0 : Fin 1) ch) = ix2 (1 : Fin 2) ch from R1_idx ch]
  refine (canon_skip_R0 _ _ ch).trans ?_
  rw [View.canon_unit_zero hz2]
  exact pay1_apply _

end Cert.KernelIdeal.Hand

end
-- ==== Proof.KernelBlocks.lean ====
/-
  A sum over 32 samples taken in four blocks of eight.

  Sample s = 8 · t + b for a block t < 4 and an offset b < 8; the pairs (t, b) are in bijection with the 32 samples.
  So accumulating, from zero, the four block sums (each a sum over positions of a sum over the block's eight
  samples) gives the sum over all samples and positions: addition on the extended reals is commutative and
  associative, and finite sums may be exchanged.
-/
import Mathlib.Data.EReal.Basic
import Mathlib.Algebra.BigOperators.Fin
import Mathlib.Data.Fintype.BigOperators

noncomputable section

namespace Cert.KernelIdeal.Pays

open scoped BigOperators

/-- Sample 8 · t + b. -/
def blk (t : Fin 4) (b : Fin 8) : Fin 32 := ⟨t.val * 8 + b.val, by have := t.isLt; have := b.isLt; omega⟩

/-- Blocks and offsets are the samples. -/
def blkEquiv : Fin 4 × Fin 8 ≃ Fin 32 where
  toFun p := blk p.1 p.2
  invFun s := (⟨s.val / 8, by have := s.isLt; omega⟩, ⟨s.val % 8, Nat.mod_lt _ (by decide)⟩)
  left_inv p := by
    have h1 := p.1.isLt; have h2 := p.2.isLt
    refine Prod.ext (Fin.ext ?_) (Fin.ext ?_)
    · show (p.1.val * 8 + p.2.val) / 8 = p.1.val; omega
    · show (p.1.val * 8 + p.2.val) % 8 = p.2.val; omega
  right_inv s := by
    refine Fin.ext ?_
    show s.val / 8 * 8 + s.val % 8 = s.val; omega

theorem four_blocks (g : Fin 32 → Fin 1024 → EReal) :
    (((0 + ∑ k : Fin 1024, ∑ b : Fin 8, g (blk 0 b) k) + ∑ k : Fin 1024, ∑ b : Fin 8, g (blk 1 b) k)
        + ∑ k : Fin 1024, ∑ b : Fin 8, g (blk 2 b) k) + ∑ k : Fin 1024, ∑ b : Fin 8, g (blk 3 b) k
      = ∑ s : Fin 32, ∑ k : Fin 1024, g s k := by
  rw [← Equiv.sum_comp blkEquiv (fun s => ∑ k : Fin 1024, g s k), Fintype.sum_prod_type, Fin.sum_univ_four, zero_add]
  have e : ∀ t : Fin 4, ∑ b : Fin 8, ∑ k : Fin 1024, g (blkEquiv (t, b)) k
      = ∑ k : Fin 1024, ∑ b : Fin 8, g (blk t b) k := fun t => Finset.sum_comm
  rw [e 0, e 1, e 2, e 3]

end Cert.KernelIdeal.Pays

end
-- ==== Proof.KI.ValStats.lean ====
/-
  The statistics array as a function of the input.
  The scratch after point n holds the running sums: (0 + s₀) + s₁ + … + sₙ in row 0, and the same with the blocks'
  sums of squares in row 1 — by induction on the point.  The four blocks are samples 8t … 8t+7, so the running sums
  after the last point are the channel's sums over all 32 samples: on the extended reals a sum may be regrouped and
  reordered freely.  The last point stores mean = S1 · 2⁻¹⁵ and rsqrt(S2 · 2⁻¹⁵ − mean² + ε): the specification's
  `mean` and `inv`.
-/
import proofs.«138456_j7902739824826_2_alg».proof.Proof.KI.ValPieces
import proofs.«138456_j7902739824826_2_alg».proof.Proof.KernelBlocks
import proofs.«138456_j7902739824826_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pays
open scoped BigOperators

section
variable (V : (c : Dev nD) → (b : Ref sig .tc) → Buf (Elt Ideal) ((c : Thread nD τ).loc b))

/-- The input array the passes read (samples × channels × positions), as extended reals. -/
def xr0 (c : Dev nD) : Cert.Spec.XR := V c main_v0

/-! ## One point's step, case by case -/

theorem stepA (c : Dev nD) (t : Fin cfg0.N) (h0 : t.val % 4 = 0) (h1 : ¬t.val % 4 = 3) (ch : Fin 64) :
    (outsAt0 V c t.val t.isLt).2 (ix2 (0 : Fin 2) ch) = 0 + bs1 (iblk0 V c 0 t) ch
    ∧ (outsAt0 V c t.val t.isLt).2 (ix2 (1 : Fin 2) ch) = 0 + bs2 (iblk0 V c 0 t) ch := by
  rw [outsAt0_A V c t h0 h1]
  exact ⟨soutA_0 c (grid0.coords t) (ms0_0 t) (hs0_0 t) (ms0_1 t) (hs0_1 t) scM0_0 (Memref.isWhole_whole _) ((hcond0_0 t).mpr h0) (fun h => h1 ((hcond0_1 t).mp h)) (iblk0 V c 0 t) ch,
    soutA_1 c (grid0.coords t) (ms0_0 t) (hs0_0 t) (ms0_1 t) (hs0_1 t) scM0_0 (Memref.isWhole_whole _) ((hcond0_0 t).mpr h0) (fun h => h1 ((hcond0_1 t).mp h)) (iblk0 V c 0 t) ch⟩

theorem stepB (c : Dev nD) (t : Fin cfg0.N) (h0 : ¬t.val % 4 = 0) (h1 : ¬t.val % 4 = 3) (ch : Fin 64) :
    (outsAt0 V c t.val t.isLt).2 (ix2 (0 : Fin 2) ch) = (outsAt0 V c (t.val - 1) (Nat.lt_of_le_of_lt (Nat.sub_le _ _) t.isLt)).2 (ix2 (0 : Fin 2) ch) + bs1 (iblk0 V c 0 t) ch
    ∧ (outsAt0 V c t.val t.isLt).2 (ix2 (1 : Fin 2) ch) = (outsAt0 V c (t.val - 1) (Nat.lt_of_le_of_lt (Nat.sub_le _ _) t.isLt)).2 (ix2 (1 : Fin 2) ch) + bs2 (iblk0 V c 0 t) ch := by
  rw [outsAt0_B V c t h0 h1]
  exact ⟨soutB_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2 ch,
    soutB_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2 ch⟩

theorem stepC (c : Dev nD) (t : Fin cfg0.N) (h0 : ¬t.val % 4 = 0) (h1 : t.val % 4 = 3) (ch : Fin 64) :
    (outsAt0 V c t.val t.isLt).2 (ix2 (0 : Fin 2) ch) = (outsAt0 V c (t.val - 1) (Nat.lt_of_le_of_lt (Nat.sub_le _ _) t.isLt)).2 (ix2 (0 : Fin 2) ch) + bs1 (iblk0 V c 0 t) ch
    ∧ (outsAt0 V c t.val t.isLt).2 (ix2 (1 : Fin 2) ch) = (outsAt0 V c (t.val - 1) (Nat.lt_of_le_of_lt (Nat.sub_le _ _) t.isLt)).2 (ix2 (1 : Fin 2) ch) + bs2 (iblk0 V c 0 t) ch := by
  rw [outsAt0_C V c t h0 h1]
  exact ⟨soutC_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2 ch,
    soutC_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2 ch⟩

/-- What the last point stores into the result window. -/
theorem stepC_out (c : Dev nD) (t : Fin cfg0.N) (h0 : ¬t.val % 4 = 0) (h1 : t.val % 4 = 3) (ch : Fin 64) :
    (outsAt0 V c t.val t.isLt).1 (ix2 (0 : Fin 2) ch) = ((outsAt0 V c (t.val - 1) (Nat.lt_of_le_of_lt (Nat.sub_le _ _) t.isLt)).2 (ix2 (0 : Fin 2) ch) + bs1 (iblk0 V c 0 t) ch) * Cert.Spec.w15
    ∧ (outsAt0 V c t.val t.isLt).1 (ix2 (1 : Fin 2) ch)
        = Ideal.rsqrt (((outsAt0 V c (t.val - 1) (Nat.lt_of_le_of_lt (Nat.sub_le _ _) t.isLt)).2 (ix2 (1 : Fin 2) ch) + bs2 (iblk0 V c 0 t) ch) * Cert.Spec.w15
            - (((outsAt0 V c (t.val - 1) (Nat.lt_of_le_of_lt (Nat.sub_le _ _) t.isLt)).2 (ix2 (0 : Fin 2) ch) + bs1 (iblk0 V c 0 t) ch) * Cert.Spec.w15) * (((outsAt0 V c (t.val - 1) (Nat.lt_of_le_of_lt (Nat.sub_le _ _) t.isLt)).2 (ix2 (0 : Fin 2) ch) + bs1 (iblk0 V c 0 t) ch) * Cert.Spec.w15) + Cert.Spec.eps) := by
  rw [outsAt0_C V c t h0 h1]
  exact ⟨outC_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2 ch,
    outC_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2 ch⟩

/-! ## The running sums -/

/-- The running sum, and running sum of squares, after point `n`. -/
def acc1 (c : Dev nD) : (n : ℕ) → n < cfg0.N → Fin 64 → EReal
  | 0, h, ch => 0 + bs1 (iblk0 V c 0 ⟨0, h⟩) ch
  | n + 1, h, ch => acc1 c n (Nat.lt_of_succ_lt h) ch + bs1 (iblk0 V c 0 ⟨n + 1, h⟩) ch
def acc2 (c : Dev nD) : (n : ℕ) → n < cfg0.N → Fin 64 → EReal
  | 0, h, ch => 0 + bs2 (iblk0 V c 0 ⟨0, h⟩) ch
  | n + 1, h, ch => acc2 c n (Nat.lt_of_succ_lt h) ch + bs2 (iblk0 V c 0 ⟨n + 1, h⟩) ch

/-- The scratch after point `n` holds them. -/
theorem scratch_eq (c : Dev nD) : ∀ (n : ℕ) (h : n < cfg0.N) (ch : Fin 64),
    (outsAt0 V c n h).2 (ix2 (0 : Fin 2) ch) = acc1 V c n h ch ∧ (outsAt0 V c n h).2 (ix2 (1 : Fin 2) ch) = acc2 V c n h ch
  | 0, h, ch => stepA V c ⟨0, h⟩ rfl (by dsimp only; omega) ch
  | n + 1, h, ch => by
    have hN : cfg0.N = 4 := N_0
    have h0 : ¬(⟨n + 1, h⟩ : Fin cfg0.N).val % 4 = 0 := by dsimp only; omega
    obtain ⟨i0, i1⟩ := scratch_eq c n (Nat.lt_of_succ_lt h) ch
    by_cases h1 : (⟨n + 1, h⟩ : Fin cfg0.N).val % 4 = 3
    · obtain ⟨e0, e1⟩ := stepC V c ⟨n + 1, h⟩ h0 h1 ch
      refine ⟨e0.trans ?_, e1.trans ?_⟩
      · show (outsAt0 V c n _).2 _ + _ = acc1 V c n _ ch + _
        rw [i0]
      · show (outsAt0 V c n _).2 _ + _ = acc2 V c n _ ch + _
        rw [i1]
    · obtain ⟨e0, e1⟩ := stepB V c ⟨n + 1, h⟩ h0 h1 ch
      refine ⟨e0.trans ?_, e1.trans ?_⟩
      · show (outsAt0 V c n _).2 _ + _ = acc1 V c n _ ch + _
        rw [i0]
      · show (outsAt0 V c n _).2 _ + _ = acc2 V c n _ ch + _
        rw [i1]

theorem h3 : 3 < cfg0.N := by rw [show cfg0.N = 4 from N_0]; decide

/-- The statistics array: row 0 the running sum after the last point times 2⁻¹⁵, row 1 the reciprocal deviation. -/
theorem stats_rows (c : Dev nD) (ch : Fin 64) :
    (statsArr V c : S2x64.Idx → EReal) (ix2 (0 : Fin 2) ch) = acc1 V c 3 h3 ch * Cert.Spec.w15
    ∧ (statsArr V c : S2x64.Idx → EReal) (ix2 (1 : Fin 2) ch)
      = Ideal.rsqrt (acc2 V c 3 h3 ch * Cert.Spec.w15 - (acc1 V c 3 h3 ch * Cert.Spec.w15) * (acc1 V c 3 h3 ch * Cert.Spec.w15) + Cert.Spec.eps) := by
  obtain ⟨e0, e1⟩ := stepC_out V c ⟨3, h3⟩ (by dsimp only; omega) rfl ch
  obtain ⟨i0, i1⟩ := scratch_eq V c 2 (Nat.lt_of_succ_lt h3) ch
  refine ⟨e0.trans ?_, e1.trans ?_⟩
  · show ((outsAt0 V c 2 _).2 _ + _) * _ = (acc1 V c 2 _ ch + _) * _
    rw [i0]
  · show Ideal.rsqrt (((outsAt0 V c 2 _).2 _ + _) * _ - (((outsAt0 V c 2 _).2 _ + _) * _) * (((outsAt0 V c 2 _).2 _ + _) * _) + _)
      = Ideal.rsqrt ((acc2 V c 2 _ ch + _) * _ - ((acc1 V c 2 _ ch + _) * _) * ((acc1 V c 2 _ ch + _) * _) + _)
    rw [i0, i1]

/-! ## The four blocks are the whole sample axis -/

theorem bs1_iblk (c : Dev nD) (n : ℕ) (hn : n < cfg0.N) (hn4 : n < 4) (ch : Fin 64) :
    bs1 (iblk0 V c 0 ⟨n, hn⟩) ch = ∑ k : Fin 1024, ∑ b : Fin 8, xr0 V c (ix3 (blk ⟨n, hn4⟩ b) ch k) :=
  Finset.sum_congr rfl fun k _ => Finset.sum_congr rfl fun b _ => iblk0_apply V c ⟨n, hn⟩ b ch k
theorem bs2_iblk (c : Dev nD) (n : ℕ) (hn : n < cfg0.N) (hn4 : n < 4) (ch : Fin 64) :
    bs2 (iblk0 V c 0 ⟨n, hn⟩) ch = ∑ k : Fin 1024, ∑ b : Fin 8, xr0 V c (ix3 (blk ⟨n, hn4⟩ b) ch k) * xr0 V c (ix3 (blk ⟨n, hn4⟩ b) ch k) :=
  Finset.sum_congr rfl fun k _ => Finset.sum_congr rfl fun b _ =>
    congrArg₂ (fun u v : EReal => u * v) (iblk0_apply V c ⟨n, hn⟩ b ch k) (iblk0_apply V c ⟨n, hn⟩ b ch k)

/-- After the last point the running sums are the channel's sums over all samples and positions. -/
theorem acc1_last (c : Dev nD) (ch : Fin 64) : acc1 V c 3 h3 ch = Cert.Spec.S1 (xr0 V c) ch := by
  show ((0 + bs1 (iblk0 V c 0 ⟨0, _⟩) ch + bs1 (iblk0 V c 0 ⟨1, _⟩) ch) + bs1 (iblk0 V c 0 ⟨2, _⟩) ch) + bs1 (iblk0 V c 0 ⟨3, _⟩) ch = _
  rw [bs1_iblk V c 0 _ (by decide) ch, bs1_iblk V c 1 _ (by decide) ch, bs1_iblk V c 2 _ (by decide) ch, bs1_iblk V c 3 _ (by decide) ch]
  exact four_blocks fun s k => xr0 V c (ix3 s ch k)
theorem acc2_last (c : Dev nD) (ch : Fin 64) : acc2 V c 3 h3 ch = Cert.Spec.S2 (xr0 V c) ch := by
  show ((0 + bs2 (iblk0 V c 0 ⟨0, _⟩) ch + bs2 (iblk0 V c 0 ⟨1, _⟩) ch) + bs2 (iblk0 V c 0 ⟨2, _⟩) ch) + bs2 (iblk0 V c 0 ⟨3, _⟩) ch = _
  rw [bs2_iblk V c 0 _ (by decide) ch, bs2_iblk V c 1 _ (by decide) ch, bs2_iblk V c 2 _ (by decide) ch, bs2_iblk V c 3 _ (by decide) ch]
  exact four_blocks fun s k => xr0 V c (ix3 s ch k) * xr0 V c (ix3 s ch k)

/-- The statistics array is the specification's mean (row 0) and reciprocal deviation (row 1) of the input array. -/
theorem stats_mean (c : Dev nD) (ch : Fin 64) :
    (statsArr V c : S2x64.Idx → EReal) (ix2 (0 : Fin 2) ch) = Cert.Spec.mean (xr0 V c) ch := by
  rw [(stats_rows V c ch).1, acc1_last]; rfl
theorem stats_inv (c : Dev nD) (ch : Fin 64) :
    (statsArr V c : S2x64.Idx → EReal) (ix2 (1 : Fin 2) ch) = Cert.Spec.inv (xr0 V c) ch := by
  rw [(stats_rows V c ch).2, acc1_last, acc2_last]; rfl

end

end Cert.KernelIdeal.Hand

end
-- ==== Proof.KI.ValAffine.lean ====
/-
  The affine pass's result array as one function.

  Point t of the pass is branch n = t.  It reads the whole input, row n of the scale table and row n of the shift
  table, and writes the slab (all samples, branch n, all channels, all positions) of the result, at each element
  input · scale + shift with the two table rows read at (n, 0, channel).  An element (s, n, ch, k) of the result lies
  in the slab of point n and of no other, and the sixteen slabs fill the array; so the array ends as the function
      (s, n, ch, k)  ↦  input (s, ch, k) · scale (n, 0, ch) + shift (n, 0, ch).
  A block's coordinate in its array is (block index) × (block size) + (coordinate inside the block).
-/
import proofs.«138456_j7902739824826_2_alg».proof.Proof.KI.Reg1
import proofs.«138456_j7902739824826_2_alg».proof.Proof.KernelPays
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.Pays

/-- input · scale + shift, the two tables read at (branch, 0, channel) -/
def G1 (xr : S32x64x1024.Idx → EReal) (sc sh : S16x1x64.Idx → EReal) : S32x16x64x1024.Idx → EReal :=
  fun j => xr (ix3 (j 0) (j 2) (j 3)) * sc (ix3 (j 1) 0 (j 2)) + sh (ix3 (j 1) 0 (j 2))

theorem G1_apply (xr : S32x64x1024.Idx → EReal) (sc sh : S16x1x64.Idx → EReal) (s : Fin 32) (n : Fin 16) (ch : Fin 64)
    (k : Fin 1024) : G1 xr sc sh (ix4 s n ch k) = xr (ix3 s ch k) * sc (ix3 n 0 ch) + sh (ix3 n 0 ch) := rfl

theorem hzA3 : (![0, 0, 0] : Fin 3 → Nat) = fun _ => 0 := funext fun a => by fin_cases a <;> rfl
theorem hzA4 : (![0, 0, 0, 0] : Fin 4 → Nat) = fun _ => 0 := funext fun a => by fin_cases a <;> rfl

/-- The four index maps over the grid: the input's block is always block (0, 0, 0); the tables' block at point t is
    row t; the result's block at point t is slab t. -/
theorem idx_facts1 : ∀ t : Fin cfg1.N,
    win1_0.index t (0 : Fin 3) = 0 ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 4) = 0 ∧ win1_3.index t (1 : Fin 4) = t.val ∧ win1_3.index t (2 : Fin 4) = 0
    ∧ win1_3.index t (3 : Fin 4) = 0 :=
  (by decide +kernel : ∀ t : Fin grid1.N, _)

/-- One element of a point's slab, from what the three blocks are. -/
theorem point_eq (A0 : S32x64x1024.Idx → EReal) (A1 A2 : S16x1x64.Idx → EReal)
    (X0 : Vec Ideal S32x64x1024 .f32) (X1 X2 : Vec Ideal S1x1x64 .f32) (n : Fin 16)
    (h0 : ∀ (s : Fin 32) (ch : Fin 64) (k : Fin 1024), X0 (ix3 s ch k) = A0 (ix3 s ch k))
    (h1 : ∀ ch : Fin 64, X1 (ix3 0 0 ch) = A1 (ix3 n 0 ch))
    (h2 : ∀ ch : Fin 64, X2 (ix3 0 0 ch) = A2 (ix3 n 0 ch))
    (s : Fin 32) (ch : Fin 64) (k : Fin 1024) :
    k1_pay1 (F := Ideal) X0 X1 X2 (ix4 s 0 ch k) = G1 A0 A1 A2 (ix4 s n ch k) := by
  rw [k1pay_apply, G1_apply, h0, h1, h2]

section
variable (V : (c : Dev nD) → (b : Ref sig .tc) → Buf (Elt Ideal) ((c : Thread nD τ).loc b))

/-- The input's block at any point is the input. -/
theorem iblk1_0_apply (c : Dev nD) (t : Fin cfg1.N) (s : Fin 32) (ch : Fin 64) (k : Fin 1024) :
    (iblk1 V c 0 t : Vec Ideal S32x64x1024 .f32) (ix3 s ch k) = (V c main_v0 : S32x64x1024.Idx → EReal) (ix3 s ch k) := by
  obtain ⟨e0, e1, e2, -⟩ := idx_facts1 t
  unfold iblk1
  rw [View.read_apply]
  show V c main_v0 _ = V c main_v0 _
  congr 1
  funext a
  apply Fin.ext
  match a with
  | ⟨0, _⟩ => show win1_0.index t (0 : Fin 3) * 32 + 1 * s.val = s.val; rw [e0]; omega
  | ⟨1, _⟩ => show win1_0.index t (1 : Fin 3) * 64 + 1 * ch.val = ch.val; rw [e1]; omega
  | ⟨2, _⟩ => show win1_0.index t (2 : Fin 3) * 1024 + 1 * k.val = k.val; rw [e2]; omega

/-- The scale table's block at point t is its row t. -/
theorem iblk1_1_apply (c : Dev nD) (t : Fin cfg1.N) (n : Fin 16) (hn : n.val = t.val) (ch : Fin 64) :
    (iblk1 V c 1 t : Vec Ideal S1x1x64 .f32) (ix3 0 0 ch) = (V c main_v13 : S16x1x64.Idx → EReal) (ix3 n 0 ch) := by
  obtain ⟨-, -, -, e0, e1, e2, -⟩ := idx_facts1 t
  unfold iblk1
  rw [View.read_apply]
  show V c main_v13 _ = V c main_v13 _
  congr 1
  funext a
  apply Fin.ext
  match a with
  | ⟨0, _⟩ => show win1_1.index t (0 : Fin 3) * 1 + 1 * 0 = n.val; rw [e0]; omega
  | ⟨1, _⟩ => show win1_1.index t (1 : Fin 3) * 1 + 1 * 0 = 0; rw [e1]
  | ⟨2, _⟩ => show win1_1.index t (2 : Fin 3) * 64 + 1 * ch.val = ch.val; rw [e2]; omega

/-- The shift table's block at point t is its row t. -/
theorem iblk1_2_apply (c : Dev nD) (t : Fin cfg1.N) (n : Fin 16) (hn : n.val = t.val) (ch : Fin 64) :
    (iblk1 V c 2 t : Vec Ideal S1x1x64 .f32) (ix3 0 0 ch) = (V c main_v14 : S16x1x64.Idx → EReal) (ix3 n 0 ch) := by
  obtain ⟨-, -, -, -, -, -, e0, e1, e2, -⟩ := idx_facts1 t
  unfold iblk1
  rw [View.read_apply]
  show V c main_v14 _ = V c main_v14 _
  congr 1
  funext a
  apply Fin.ext
  match a with
  | ⟨0, _⟩ => show win1_2.index t (0 : Fin 3) * 1 + 1 * 0 = n.val; rw [e0]; omega
  | ⟨1, _⟩ => show win1_2.index t (1 : Fin 3) * 1 + 1 * 0 = 0; rw [e1]
  | ⟨2, _⟩ => show win1_2.index t (2 : Fin 3) * 64 + 1 * ch.val = ch.val; rw [e2]; omega

/-- WHAT POINT t WRITES BACK is slab t of the function. -/
theorem flushed1_eq (c : Dev nD) (t : Fin cfg1.N) :
    (dat1 V c).flushed 3 t
      = ((cfg1.win 3).blk t).view.read (Elt Ideal) (G1 (V c main_v0) (V c main_v13) (V c main_v14)) := by
  show (cfg1.win 3).cut (grid1.coords t) ((dat1 V c).after 3 t) = _
  rw [after1_3]
  unfold out1_3
  rw [View.canon_unit_zero hzA4]
  simp only [View.ld_unit_zero (S := S32x64x1024) hzA3, View.ld_unit_zero (S := S1x1x64) hzA3]
  obtain ⟨-, -, -, -, -, -, -, -, -, e0, e1, e2, e3⟩ := idx_facts1 t
  have htN : t.val < 16 := lt_of_lt_of_eq t.isLt N_1
  funext y
  obtain ⟨s, u, ch, k, rfl⟩ : ∃ (s : Fin 32) (u : Fin 1) (ch : Fin 64) (k : Fin 1024),
      (y : S32x1x64x1024.Idx) = ix4 s u ch k := ⟨y 0, y 1, y 2, y 3, eq_ix4 _⟩
  obtain rfl : u = 0 := Subsingleton.elim _ _
  rw [View.read_apply]
  show k1_pay1 (F := Ideal) (iblk1 V c 0 t) (iblk1 V c 1 t) (iblk1 V c 2 t) (ix4 s 0 ch k)
    = G1 (V c main_v0) (V c main_v13) (V c main_v14) (((cfg1.win 3).blk t).view.emb (ix4 s (0 : Fin 1) ch k))
  have hemb : ((cfg1.win 3).blk t).view.emb (ix4 s (0 : Fin 1) ch k)
      = (ix4 s (⟨t.val, htN⟩ : Fin 16) ch k : S32x16x64x1024.Idx) := by
    funext a
    apply Fin.ext
    match a with
    | ⟨0, _⟩ => show win1_3.index t (0 : Fin 4) * 32 + 1 * s.val = s.val; rw [e0]; omega
    | ⟨1, _⟩ => show win1_3.index t (1 : Fin 4) * 1 + 1 * 0 = t.val; rw [e1]; omega
    | ⟨2, _⟩ => show win1_3.index t (2 : Fin 4) * 64 + 1 * ch.val = ch.val; rw [e2]; omega
    | ⟨3, _⟩ => show win1_3.index t (3 : Fin 4) * 1024 + 1 * k.val = k.val; rw [e3]; omega
  rw [hemb]
  exact point_eq _ _ _ _ _ _ ⟨t.val, htN⟩ (iblk1_0_apply V c t) (iblk1_1_apply V c t _ rfl) (iblk1_2_apply V c t _ rfl) s ch k

/-- An index of the result is in point t's slab iff each coordinate is in the slab's range on its axis. -/
theorem mem_blk1 (t : Fin cfg1.N) (i : S32x16x64x1024.Idx) :
    i ∈ ((cfg1.win 3).blk t).view.set ↔ ∀ a : Fin 4, win1_3.index t a * S32x1x64x1024.size a ≤ (i a).val
      ∧ (i a).val < win1_3.index t a * S32x1x64x1024.size a + S32x1x64x1024.size a := by
  show i ∈ ((View.whole main_v15).slice (win1_3.rect t)).set ↔ _
  rw [View.set_slice_whole, Rect.mem_set_unit]
  exact Iff.rfl

/-- THE RESULT ARRAY after the pass. -/
theorem final1 (c : Dev nD) :
    (dat1 V c).arrAt 3 cfg1.N = G1 (V c main_v0) (V c main_v13) (V c main_v14) :=
  (dat1 V c).arrAt_eq_of_cover 3 (G1 (V c main_v0) (V c main_v13) (V c main_v14)) (fun t _ => flushed1_eq V c t) fun i => by
    have h0 : (i 0).val < 32 := (i 0).isLt
    have h1 : (i 1).val < 16 := (i 1).isLt
    have h2 : (i 2).val < 64 := (i 2).isLt
    have h3 : (i 3).val < 1024 := (i 3).isLt
    refine ⟨⟨(i 1).val, lt_of_lt_of_eq h1 N_1.symm⟩, flush1_3 _, ?_⟩
    obtain ⟨-, -, -, -, -, -, -, -, -, e0, e1, e2, e3⟩ := idx_facts1 ⟨(i 1).val, lt_of_lt_of_eq h1 N_1.symm⟩
    rw [mem_blk1]
    intro a
    match a with
    | ⟨0, _⟩ =>
      show win1_3.index _ (0 : Fin 4) * 32 ≤ (i 0).val ∧ (i 0).val < win1_3.index _ (0 : Fin 4) * 32 + 32
      rw [e0]; omega
    | ⟨1, _⟩ =>
      show win1_3.index _ (1 : Fin 4) * 1 ≤ (i 1).val ∧ (i 1).val < win1_3.index _ (1 : Fin 4) * 1 + 1
      rw [e1]; show (i 1).val * 1 ≤ (i 1).val ∧ (i 1).val < (i 1).val * 1 + 1; omega
    | ⟨2, _⟩ =>
      show win1_3.index _ (2 : Fin 4) * 64 ≤ (i 2).val ∧ (i 2).val < win1_3.index _ (2 : Fin 4) * 64 + 64
      rw [e2]; omega
    | ⟨3, _⟩ =>
      show win1_3.index _ (3 : Fin 4) * 1024 ≤ (i 3).val ∧ (i 3).val < win1_3.index _ (3 : Fin 4) * 1024 + 1024
      rw [e3]; omega

end

end Cert.KernelIdeal.Hand

end
-- ==== Proof.KernelHost.lean ====
/-
  The host lines between the two passes, as two functions of the statistics array (row 0 the mean, row 1 the
  reciprocal deviation) and the affine tables.

  Row r of the statistics is cut out, flattened to [64], given a unit leading axis and spread over the 16 branches:
  at (branch n, channel ch) that reads the statistic of channel ch.  So the scale at (n, ch) is
  gamma(n, ch) · inv(ch) and the shift is beta(n, ch) − mean(ch) · (gamma(n, ch) · inv(ch)); the final reshape
  [16, 64] to [16, 1, 64] only inserts an axis of length one.
-/
import proofs.«138456_j7902739824826_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Pays

open Idealize.ShloMosaic Idealize.ShloMosaic.ValueIdx Cert.KernelIdeal Cert.KernelIdeal.Gen
open scoped BigOperators

/-- The per-branch scale the host computes from the statistics and gamma. -/
def hostScale (st : FVec Ideal S2x64 .f32) (gam : FVec Ideal S16x64 .f32) : FVec Ideal S16x1x64 .f32 :=
  shapeCast S16x1x64 (mulf gam (broadcastInDim S16x64 ![0, 1] bcast_S1x64_S16x64_0_1 (broadcastInDim S1x64 ![1] bcast_S64_S1x64_1 (shapeCast S64 (extractStridedSlice S1x64 ![1, 0] st slices_S2x64_S1x64_1_0) shapeCasts_S1x64_S64)))) shapeCasts_S16x64_S16x1x64

/-- The per-branch shift the host computes from the statistics, gamma and beta. -/
def hostShift (st : FVec Ideal S2x64 .f32) (gam bet : FVec Ideal S16x64 .f32) : FVec Ideal S16x1x64 .f32 :=
  shapeCast S16x1x64 (subf bet (mulf (broadcastInDim S16x64 ![0, 1] bcast_S1x64_S16x64_0_1 (broadcastInDim S1x64 ![1] bcast_S64_S1x64_1 (shapeCast S64 (extractStridedSlice S1x64 ![0, 0] st slices_S2x64_S1x64_0_0) shapeCasts_S1x64_S64))) (mulf gam (broadcastInDim S16x64 ![0, 1] bcast_S1x64_S16x64_0_1 (broadcastInDim S1x64 ![1] bcast_S64_S1x64_1 (shapeCast S64 (extractStridedSlice S1x64 ![1, 0] st slices_S2x64_S1x64_1_0) shapeCasts_S1x64_S64)))))) shapeCasts_S16x64_S16x1x64

/-- Row o of the statistics, spread over the branches, read at (branch n, channel ch). -/
theorem statRow_apply (st : FVec Ideal S2x64 .f32) (o : ℕ) (ho : o < 2) (hs : S2x64.Slices ![o, 0] S1x64)
    (hc : S1x64.ShapeCasts S64) (hb1 : S64.BroadcastsInDim S1x64 ![1]) (hb2 : S1x64.BroadcastsInDim S16x64 ![0, 1])
    (n : Fin 16) (ch : Fin 64) :
    broadcastInDim S16x64 ![0, 1] hb2 (broadcastInDim S1x64 ![1] hb1 (shapeCast S64 (extractStridedSlice S1x64 ![o, 0] st hs) hc))
        (ix2 n ch)
      = st (ix2 (⟨o, ho⟩ : Fin 2) ch) := by
  refine (broadcastInDim_apply _ hb2 _ (ix2 n ch) (ix2 (0 : Fin 1) ch) ?_).trans ?_
  · intro a
    match a with
    | ⟨0, _⟩ => show 0 = if (1 : ℕ) = 1 then 0 else n.val; rw [if_pos rfl]
    | ⟨1, _⟩ => show ch.val = if (64 : ℕ) = 1 then 0 else ch.val; rw [if_neg (by decide)]
  · refine (broadcastInDim_apply _ hb1 _ (ix2 (0 : Fin 1) ch) (ix1 ch) ?_).trans ?_
    · intro a
      match a with
      | ⟨0, _⟩ => show ch.val = if (64 : ℕ) = 1 then 0 else ch.val; rw [if_neg (by decide)]
    · rw [shapeCast_1a_a_apply]
      refine extractStridedSlice_apply _ st hs (ix2 (0 : Fin 1) ch) (ix2 (⟨o, ho⟩ : Fin 2) ch) ?_
      intro a
      match a with
      | ⟨0, _⟩ => show o = o + 0; rfl
      | ⟨1, _⟩ => show ch.val = 0 + ch.val; omega

/-- The scale at (branch n, channel ch). -/
theorem hostScale_apply (st : FVec Ideal S2x64 .f32) (gam : FVec Ideal S16x64 .f32) (n : Fin 16) (ch : Fin 64) :
    hostScale st gam (ix3 n 0 ch) = gam (ix2 n ch) * st (ix2 1 ch) := by
  unfold hostScale
  refine (shapeCast_apply _ _ (ix3 n (0 : Fin 1) ch) (ix2 n ch) ?_).trans ?_
  · rw [Shape.rowMajor_val_two, Shape.rowMajor_val_three]
    show n.val * 64 + ch.val = (n.val * 1 + 0) * 64 + ch.val
    omega
  · exact congrArg₂ (· * ·) rfl (statRow_apply st 1 (by decide) _ _ _ _ n ch)

/-- The shift at (branch n, channel ch). -/
theorem hostShift_apply (st : FVec Ideal S2x64 .f32) (gam bet : FVec Ideal S16x64 .f32) (n : Fin 16) (ch : Fin 64) :
    hostShift st gam bet (ix3 n 0 ch) = bet (ix2 n ch) - st (ix2 0 ch) * (gam (ix2 n ch) * st (ix2 1 ch)) := by
  unfold hostShift
  refine (shapeCast_apply _ _ (ix3 n (0 : Fin 1) ch) (ix2 n ch) ?_).trans ?_
  · rw [Shape.rowMajor_val_two, Shape.rowMajor_val_three]
    show n.val * 64 + ch.val = (n.val * 1 + 0) * 64 + ch.val
    omega
  · exact congrArg₂ (· - ·) rfl (congrArg₂ (· * ·) (statRow_apply st 0 (by decide) _ _ _ _ n ch)
      (congrArg₂ (· * ·) rfl (statRow_apply st 1 (by decide) _ _ _ _ n ch)))

end Cert.KernelIdeal.Pays

end
-- ==== Proof.KI.ValFinal.lean ====
/-
  The kernel's result is the specification.
  The affine pass leaves input · scale + shift with the tables read at (branch, 0, channel); the tables are the host
  lines' g · inv and b − mean · (g · inv) of the statistics array; the statistics array is the specification's mean and
  reciprocal deviation of the reshaped input.  Put together, the array the affine pass leaves is the specification's
  `G` of the reshaped input and the two affine arguments, and the program's result is its reshape.
-/
import proofs.«138456_j7902739824826_2_alg».proof.Proof.KI.ValChain
import proofs.«138456_j7902739824826_2_alg».proof.Proof.KI.ValStats
import proofs.«138456_j7902739824826_2_alg».proof.Proof.KI.ValAffine
import proofs.«138456_j7902739824826_2_alg».proof.Proof.KernelHost
import proofs.«138456_j7902739824826_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pays

variable (m : (ℓ : Loc nD τ sig) → Buf (Elt Ideal) ℓ) (ρ : Dev nD → PrngReg)

/-- The reshaped input. -/
abbrev xrOf (c : Dev nD) : Cert.Spec.XR :=
  shapeCast S32x64x1024 (m ((c : Thread nD τ).loc main_arg0)) shapeCasts_S32x64x32x32_S32x64x1024

/-- The input array the statistics pass reads is the reshaped input; -/
theorem xr0_V1 (c : Dev nD) : xr0 (V1 m ρ) c = xrOf m c := W1_v0 m ρ c
/-- so is the one the affine pass reads. -/
theorem V3_v0 (c : Dev nD) : (V3 m ρ c main_v0 : S32x64x1024.Idx → EReal) = xrOf m c :=
  (W3_v0 m ρ c).trans (W1_v0 m ρ c)

/-- The statistics array the host lines read. -/
theorem st_eq (c : Dev nD) : W2 m ρ c (Proc.devRef .tc main_v1) = statsArr (V1 m ρ) c :=
  (W2_v1 m ρ c).trans (final0 (V1 m ρ) c)

/-- The scale table at (branch, 0, channel): g · inv. -/
theorem scale_apply (c : Dev nD) (n : Fin 16) (ch : Fin 64) :
    (V3 m ρ c main_v13 : S16x1x64.Idx → EReal) (ix3 n 0 ch)
      = Cert.Spec.scale (xrOf m c) (m ((c : Thread nD τ).loc main_arg1)) n ch := by
  show (W3 m ρ c (Proc.devRef .tc main_v13) : S16x1x64.Idx → EReal) (ix3 n 0 ch) = _
  rw [W3_v13, st_eq, W2_arg1]
  show hostScale (statsArr (V1 m ρ) c) (m ((c : Thread nD τ).loc main_arg1)) (ix3 n 0 ch) = _
  rw [hostScale_apply, stats_inv, xr0_V1]
  rfl

/-- The shift table at (branch, 0, channel): b − mean · (g · inv). -/
theorem shift_apply (c : Dev nD) (n : Fin 16) (ch : Fin 64) :
    (V3 m ρ c main_v14 : S16x1x64.Idx → EReal) (ix3 n 0 ch)
      = Cert.Spec.shift (xrOf m c) (m ((c : Thread nD τ).loc main_arg1)) (m ((c : Thread nD τ).loc main_arg2)) n ch := by
  show (W3 m ρ c (Proc.devRef .tc main_v14) : S16x1x64.Idx → EReal) (ix3 n 0 ch) = _
  rw [W3_v14, st_eq, W2_arg1, W2_arg2]
  show hostShift (statsArr (V1 m ρ) c) (m ((c : Thread nD τ).loc main_arg1)) (m ((c : Thread nD τ).loc main_arg2)) (ix3 n 0 ch) = _
  rw [hostShift_apply, stats_inv, stats_mean, xr0_V1]
  rfl

/-- What the affine pass leaves is the specification of the reshaped input. -/
theorem affine_eq (c : Dev nD) :
    (W4 m ρ c (Proc.devRef .tc main_v15) : S32x16x64x1024.Idx → EReal)
      = Cert.Spec.G (xrOf m c) (m ((c : Thread nD τ).loc main_arg1)) (m ((c : Thread nD τ).loc main_arg2)) := by
  rw [W4_v15, final1 (V3 m ρ) c]
  funext j
  obtain ⟨s, n, ch, k, rfl⟩ : ∃ (s : Fin 32) (n : Fin 16) (ch : Fin 64) (k : Fin 1024), j = ix4 s n ch k :=
    ⟨j 0, j 1, j 2, j 3, eq_ix4 j⟩
  rw [G1_apply, scale_apply, shift_apply, V3_v0]
  rfl

/-- The program's result: the reshape of the specification. -/
theorem result_eq (c : Dev nD) :
    (W5 m ρ c (Proc.devRef .tc main_v16) : S32x1024x32x32.Idx → EReal)
      = shapeCast S32x1024x32x32 (Cert.Spec.G (xrOf m c) (m ((c : Thread nD τ).loc main_arg1)) (m ((c : Thread nD τ).loc main_arg2)))
          shapeCasts_S32x16x64x1024_S32x1024x32x32 := by
  rw [W5_v16, affine_eq]

end Cert.KernelIdeal.Hand

end
-- ==== Proof.Finite.lean ====
/-
  An array on the extended reals is finite when every entry is a real number.
-/
import Idealize.ShloMosaic.PureOps.Ideal

namespace Cert.RefSpec

open Idealize.ShloMosaic

/-- every entry is a real number -/
def Finite {s : Shape} (x : s.Idx → EReal) : Prop := ∀ i, ∃ r : ℝ, x i = (r : EReal)

end Cert.RefSpec
-- ==== Proof.SpecAlgebra.lean ====
/-
  The real algebra behind batch normalisation, and its passage to the extended reals.

  For real numbers A p over a finite index type of n elements, with mean m = (Σ A) / n:
  the mean of the squares minus the squared mean is the mean of the squared deviations,
  (Σ A²) / n − m² = (Σ (A − m)²) / n  (expand the square; Σ 1 = n), and it is not negative.  So after a
  positive ε is added the reciprocal square root is an ordinary real number, and the normalised value
  g · ((x − m) · v) + b is the affine map x · (g · v) + (b − m · (g · v)).

  Stated on the extended reals for arrays all of whose entries are real: division by the real n is the
  product with 1 / n, the coercion from the reals commutes with finite sums, and every quantity above is the
  coercion of the corresponding real one.
-/
import Idealize.ShloMosaic.PureOps.Ideal
import Mathlib.Tactic.Ring
import Mathlib.Tactic.LinearCombination
import Mathlib.Tactic.FieldSimp
import Mathlib.Tactic.Positivity

noncomputable section

namespace Cert.SpecAlgebra

open Idealize.ShloMosaic
open scoped BigOperators

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mean of squares minus squared mean is the mean of the squared deviations. -/
theorem var_eq {ι : Type*} [Fintype ι] (A : ι → ℝ) (w m : ℝ) (hw : (Fintype.card ι : ℝ) * w = 1)
    (hm : m = (∑ p, A p) * w) :
    (∑ p, A p * A p) * w - m * m = (∑ p, (A p - m) * (A p - m)) * w := by
  have h1 : ∑ p, (A p - m) * (A p - m)
      = (∑ p, A p * A p) - 2 * m * (∑ p, A p) + (Fintype.card ι : ℝ) * (m * m) := by
    have e : ∀ p, (A p - m) * (A p - m) = A p * A p - 2 * m * A p + m * m := fun p => by ring
    simp only [e, Finset.sum_add_distrib, Finset.sum_sub_distrib, ← Finset.mul_sum, Finset.sum_const,
      Finset.card_univ, nsmul_eq_mul]
    ring
  rw [h1]
  linear_combination (-(m * m)) * hw + (-2 * m) * hm

/-- The mean of the squared deviations is not negative. -/
theorem var_nonneg {ι : Type*} [Fintype ι] (A : ι → ℝ) (w m : ℝ) (hw : 0 ≤ w) :
    0 ≤ (∑ p, (A p - m) * (A p - m)) * w :=
  mul_nonneg (Finset.sum_nonneg fun p _ => mul_self_nonneg _) hw

/-- The reciprocal square root of a positive real is a real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The channel statistics of a real-valued array, read the reference's way (divide by n; deviations
    first, then squares) and the specification's way (multiply by 1 / n; mean of squares minus squared
    mean), are the same two real numbers. -/
theorem stats {ι : Type*} [Fintype ι] (X : ι → EReal) (A : ι → ℝ) (hX : ∀ p, X p = (A p : EReal))
    (n er : ℝ) (hn : (Fintype.card ι : ℝ) = n) (hn0 : 0 < n) (he : 0 < er) :
    ∃ m v : ℝ,
      Ideal.div (0 + ∑ p, X p) (n : EReal) = (m : EReal) ∧
      (∑ p, X p) * ((1 / n : ℝ) : EReal) = (m : EReal) ∧
      Ideal.rsqrt (Ideal.div (0 + ∑ p, (X p - (m : EReal)) * (X p - (m : EReal))) (n : EReal) + (er : EReal))
        = (v : EReal) ∧
      Ideal.rsqrt ((∑ p, X p * X p) * ((1 / n : ℝ) : EReal) - (m : EReal) * (m : EReal) + (er : EReal))
        = (v : EReal) := by
  have hw : (Fintype.card ι : ℝ) * (1 / n) = 1 := by rw [hn]; field_simp
  have hw0 : (0 : ℝ) ≤ 1 / n := by positivity
  refine ⟨(∑ p, A p) * (1 / n),
    (Real.sqrt ((∑ p, (A p - (∑ p, A p) * (1 / n)) * (A p - (∑ p, A p) * (1 / n))) * (1 / n) + er))⁻¹, ?_, ?_, ?_, ?_⟩
  · rw [zero_add, Ideal.div_coe hn0.ne']
    simp only [hX]
    rw [← coe_sum, ← EReal.coe_mul]
  · simp only [hX]
    rw [← coe_sum, ← EReal.coe_mul]
  · rw [zero_add, Ideal.div_coe hn0.ne']
    simp only [hX, ← EReal.coe_sub, ← EReal.coe_mul]
    rw [← coe_sum, ← EReal.coe_mul, ← EReal.coe_add]
    exact rsqrt_pos (add_pos_of_nonneg_of_pos (var_nonneg A _ _ hw0) he)
  · simp only [hX, ← EReal.coe_mul]
    rw [← coe_sum, ← EReal.coe_mul, ← EReal.coe_sub, ← EReal.coe_add, var_eq A (1 / n) _ hw rfl]
    exact rsqrt_pos (add_pos_of_nonneg_of_pos (var_nonneg A _ _ hw0) he)

/-- Normalise-then-affine is one affine map, on real entries. -/
theorem affine (g x m v b : ℝ) :
    (g : EReal) * (((x : EReal) - (m : EReal)) * (v : EReal)) + (b : EReal)
      = (x : EReal) * ((g : EReal) * (v : EReal)) + ((b : EReal) - (m : EReal) * ((g : EReal) * (v : EReal))) := by
  simp only [← EReal.coe_sub, ← EReal.coe_mul, ← EReal.coe_add]
  congr 1
  ring

end Cert.SpecAlgebra

end
-- ==== Proof.RefConsts.lean ====
/-
  The float constants of the batch-normalisation reference and specification, as the extended reals their
  patterns denote: 32768 = 2¹⁵ (the number of entries of one channel, the reference's divisor), 2⁻¹⁵ (its exact
  reciprocal, the specification's factor), and ε, of which only "a positive real" is used.
-/
import Idealize.ShloMosaic.PureOps.Ideal
import Mathlib.Tactic.NormNum
import Mathlib.Tactic.Positivity

noncomputable section

namespace Cert.RefConsts

open Idealize.ShloMosaic

/-- The pattern 0x47000000 denotes the real 32768. -/
theorem ofBits_n : Ideal.ofBits .f32 0x47000000#32 = ((32768 : ℝ) : EReal) := by
  simp [Ideal.ofBits, Ideal.ieee, -EReal.coe_mul]; norm_num

/-- The pattern 0x38000000 denotes the real 1 / 32768. -/
theorem ofBits_w : Ideal.ofBits .f32 0x38000000#32 = ((1 / 32768 : ℝ) : EReal) := by
  simp [Ideal.ofBits, Ideal.ieee, -EReal.coe_mul]; norm_num

/-- The pattern 0x3727C5AC (ε) denotes a positive real. -/
theorem ofBits_eps : ∃ er : ℝ, 0 < er ∧ Ideal.ofBits .f32 0x3727C5AC#32 = (er : EReal) := by
  refine ⟨10995116 * (2 : ℝ) ^ (-40 : ℤ), by positivity, ?_⟩
  simp [Ideal.ofBits, Ideal.ieee, -EReal.coe_mul]

end Cert.RefConsts

end
-- ==== Proof.RefSums.lean ====
/-
  Index bookkeeping for the per-channel statistics.

  A channel c of a [32, 64, 32, 32] array has 32 · 1024 entries: sample s, and position k = 32 · row + column.
  The reference sums over the indices whose channel coordinate is c; that set is in bijection with the pairs
  (s, k), so the sum is the sum over the pairs.  Viewed as [32, 64, 1024] (same row-major order) the entry at
  (s, c, k) is the entry at (s, c, k / 32, k % 32), so the specification's double sums over samples and positions
  are sums over the same pairs.  Likewise the result viewed as [32, 1024, 32, 32] has at (s, j, row, column) the
  entry of [32, 16, 64, 1024] at (s, j / 64, j % 64, 32 · row + column).
-/
import Idealize.ShloMosaic.PureOps.Ideal.Laws
import Idealize.ShloMosaic.Lib.ValueIdx
import Idealize.ShloMosaic.Lib.Pipeline.Value
import proofs.«138456_j7902739824826_2_alg».proof.Proof.Spec

noncomputable section

namespace Cert.RefSums

open Idealize.ShloMosaic Idealize.ShloMosaic.ValueIdx
open scoped BigOperators

/-- The index of channel c at sample p.1 and position p.2 = 32 · row + column. -/
def chan (c : Fin 64) (p : Fin 32 × Fin 1024) : (⟨4, ![32, 64, 32, 32]⟩ : Shape).Idx :=
  ix4 p.1 c (⟨p.2.val / 32, by have := p.2.isLt; omega⟩ : Fin 32) (⟨p.2.val % 32, Nat.mod_lt _ (by decide)⟩ : Fin 32)

/-- Sample and position of an index. -/
def pos (i : (⟨4, ![32, 64, 32, 32]⟩ : Shape).Idx) : Fin 32 × Fin 1024 :=
  ((⟨(i 0).val, (i 0).isLt⟩ : Fin 32),
   (⟨(i 2).val * 32 + (i 3).val, by
      have h2 : (i 2).val < 32 := (i 2).isLt
      have h3 : (i 3).val < 32 := (i 3).isLt
      omega⟩ : Fin 1024))

theorem pos_chan (c : Fin 64) (p : Fin 32 × Fin 1024) : pos (chan c p) = p := by
  refine Prod.ext (Fin.ext rfl) (Fin.ext ?_)
  show p.2.val / 32 * 32 + p.2.val % 32 = p.2.val
  omega

theorem chan_pos (c : Fin 64) (i : (⟨4, ![32, 64, 32, 32]⟩ : Shape).Idx) (e : (i 1).val = c.val) :
    chan c (pos i) = i := by
  have h3 : (i 3).val < 32 := (i 3).isLt
  funext a
  match a with
  | ⟨0, _⟩ => rfl
  | ⟨1, _⟩ => exact Fin.ext e.symm
  | ⟨2, _⟩ => exact Fin.ext (by show ((i 2).val * 32 + (i 3).val) / 32 = (i 2).val; omega)
  | ⟨3, _⟩ => exact Fin.ext (by show ((i 2).val * 32 + (i 3).val) % 32 = (i 3).val; omega)

/-- Dropping the sample, row and column coordinates leaves the channel. -/
theorem drop_eq_iff (h : (⟨4, ![32, 64, 32, 32]⟩ : Shape).ReducesTo [0, 2, 3] ⟨1, ![64]⟩)
    (i : (⟨4, ![32, 64, 32, 32]⟩ : Shape).Idx) (c : Fin 64) : h.drop i = ix1 c ↔ (i 1).val = c.val := by
  have hd : ((h.drop i 0 : Fin 64) : ℕ) = (i 1).val := Shape.ReducesTo.drop_apply_val_of_eq h i 0 1
  constructor
  · intro e
    rw [← hd, e]
  · intro e
    funext b
    match b with
    | ⟨0, _⟩ => exact Fin.ext (hd.trans e)

/-- The reference's sum over a channel is the initial value plus the sum over (sample, position). -/
theorem hostReduceAdd_channel (h : (⟨4, ![32, 64, 32, 32]⟩ : Shape).ReducesTo [0, 2, 3] ⟨1, ![64]⟩)
    (x : (⟨4, ![32, 64, 32, 32]⟩ : Shape).Idx → EReal) (init : EReal) (c : Fin 64) :
    Ideal.hostReduceAdd h x init (ix1 c) = init + ∑ p : Fin 32 × Fin 1024, x (chan c p) := by
  unfold Ideal.hostReduceAdd
  congr 1
  refine Finset.sum_nbij' pos (chan c) (fun _ _ => Finset.mem_univ _) ?_ ?_ ?_ ?_
  · intro p _
    rw [Finset.mem_filter]
    exact ⟨Finset.mem_univ _, (drop_eq_iff h _ c).mpr rfl⟩
  · intro i hi
    rw [Finset.mem_filter] at hi
    exact chan_pos c i ((drop_eq_iff h i c).mp hi.2)
  · intro p _
    exact pos_chan c p
  · intro i hi
    rw [Finset.mem_filter] at hi
    rw [chan_pos c i ((drop_eq_iff h i c).mp hi.2)]

/-- The input viewed as samples × channels × positions, read at an index. -/
theorem xr_apply {α : Type} (x0 : (⟨4, ![32, 64, 32, 32]⟩ : Shape).Idx → α)
    (hr : (⟨4, ![32, 64, 32, 32]⟩ : Shape).ShapeCasts ⟨3, ![32, 64, 1024]⟩) (s : Fin 32) (c : Fin 64) (k : Fin 1024) :
    shapeCast ⟨3, ![32, 64, 1024]⟩ x0 hr (ix3 s c k) = x0 (chan c (s, k)) := by
  refine shapeCast_apply x0 hr _ _ ?_
  rw [Shape.rowMajor_val_four, Shape.rowMajor_val_three]
  show ((s.val * 64 + c.val) * 32 + k.val / 32) * 32 + k.val % 32 = (s.val * 64 + c.val) * 1024 + k.val
  omega

/-- The specification's channel sum is the sum over (sample, position). -/
theorem S1_eq (x0 : (⟨4, ![32, 64, 32, 32]⟩ : Shape).Idx → EReal)
    (hr : (⟨4, ![32, 64, 32, 32]⟩ : Shape).ShapeCasts ⟨3, ![32, 64, 1024]⟩) (c : Fin 64) :
    Cert.Spec.S1 (shapeCast ⟨3, ![32, 64, 1024]⟩ x0 hr) c = ∑ p : Fin 32 × Fin 1024, x0 (chan c p) := by
  unfold Cert.Spec.S1
  rw [Fintype.sum_prod_type]
  simp only [xr_apply]

/-- The specification's channel sum of squares is the sum over (sample, position). -/
theorem S2_eq (x0 : (⟨4, ![32, 64, 32, 32]⟩ : Shape).Idx → EReal)
    (hr : (⟨4, ![32, 64, 32, 32]⟩ : Shape).ShapeCasts ⟨3, ![32, 64, 1024]⟩) (c : Fin 64) :
    Cert.Spec.S2 (shapeCast ⟨3, ![32, 64, 1024]⟩ x0 hr) c
      = ∑ p : Fin 32 × Fin 1024, x0 (chan c p) * x0 (chan c p) := by
  unfold Cert.Spec.S2
  rw [Fintype.sum_prod_type]
  simp only [xr_apply]

/-- A channel has 32768 entries. -/
theorem card_chan : ((Fintype.card (Fin 32 × Fin 1024) : ℕ) : ℝ) = 32768 := by
  rw [Fintype.card_prod, Fintype.card_fin, Fintype.card_fin]; norm_num

/-- The result viewed as samples × (branch, channel) × rows × columns, read at an index. -/
theorem out_apply {α : Type} (y : (⟨4, ![32, 16, 64, 1024]⟩ : Shape).Idx → α)
    (ho : (⟨4, ![32, 16, 64, 1024]⟩ : Shape).ShapeCasts ⟨4, ![32, 1024, 32, 32]⟩)
    (s : Fin 32) (n : Fin 16) (c : Fin 64) (r q : Fin 32) :
    shapeCast ⟨4, ![32, 1024, 32, 32]⟩ y ho
        (ix4 s (⟨n.val * 64 + c.val, by have := n.isLt; have := c.isLt; omega⟩ : Fin 1024) r q)
      = y (ix4 s n c (⟨r.val * 32 + q.val, by have := r.isLt; have := q.isLt; omega⟩ : Fin 1024)) := by
  refine shapeCast_apply y ho _ _ ?_
  rw [Shape.rowMajor_val_four, Shape.rowMajor_val_four]
  show ((s.val * 16 + n.val) * 64 + c.val) * 1024 + (r.val * 32 + q.val)
      = ((s.val * 1024 + (n.val * 64 + c.val)) * 32 + r.val) * 32 + q.val
  omega

end Cert.RefSums

end
-- ==== Proof.RefRead.lean ====
/-
  The reference program read at one element of its result.

  At (sample s, branch n, channel c, row r, column q) the reference's result is
      g(n, c) · ((x(s, c, r, q) − mean c) · inv c) + b(n, c),
  where mean c is the channel's sum divided by 32768, and inv c is the reciprocal square root of
  (the channel's sum of squared deviations from mean c) divided by 32768, plus ε.  The channel sums are sums over
  the pairs (sample, position); the result index (s, 64 · n + c, r, q) of the [32, 1024, 32, 32] view is the index
  (s, n, c, r, q) of the five-axis array (same row-major position).
-/
import proofs.«138456_j7902739824826_2_alg».proof.Proof.Gen.ReferenceIdeal.Read
import proofs.«138456_j7902739824826_2_alg».proof.Proof.RefConsts
import proofs.«138456_j7902739824826_2_alg».proof.Proof.RefSums

noncomputable section

namespace Cert.RefRead

open Idealize.ShloMosaic Idealize.ShloMosaic.ValueIdx
open Cert.ReferenceIdeal Cert.ReferenceIdeal.Gen Cert.ReferenceIdeal.Read Cert.RefSums
open scoped BigOperators

/-- The result index (s, 64 · n + c, r, q) is the five-axis index (s, n, c, r, q). -/
theorem idx27 (s : Fin 32) (n : Fin 16) (c : Fin 64) (r q : Fin 32) :
    idx_main_v27 (ix4 s (⟨n.val * 64 + c.val, by have := n.isLt; have := c.isLt; omega⟩ : Fin 1024) r q)
      = ix5 s n c r q := by
  have hs := s.isLt; have hn := n.isLt; have hc := c.isLt; have hr := r.isLt; have hq := q.isLt
  funext a
  match a with
  | ⟨0, _⟩ => exact Fin.ext (by
      show (((s.val * 1024 + (n.val * 64 + c.val)) * 32 + r.val) * 32 + q.val) / 1048576 = s.val; omega)
  | ⟨1, _⟩ => exact Fin.ext (by
      show (((s.val * 1024 + (n.val * 64 + c.val)) * 32 + r.val) * 32 + q.val) / 65536 % 16 = n.val; omega)
  | ⟨2, _⟩ => exact Fin.ext (by
      show (((s.val * 1024 + (n.val * 64 + c.val)) * 32 + r.val) * 32 + q.val) / 1024 % 64 = c.val; omega)
  | ⟨3, _⟩ => exact Fin.ext (by
      show (((s.val * 1024 + (n.val * 64 + c.val)) * 32 + r.val) * 32 + q.val) / 32 % 32 = r.val; omega)
  | ⟨4, _⟩ => exact Fin.ext (by
      show (((s.val * 1024 + (n.val * 64 + c.val)) * 32 + r.val) * 32 + q.val) % 32 = q.val; omega)

/-- The result at an element, in terms of the channel's mean and reciprocal deviation. -/
theorem read_out (x0 : FVec Ideal ⟨4, ![32, 64, 32, 32]⟩ .f32) (x1 x2 : FVec Ideal ⟨2, ![16, 64]⟩ .f32)
    (s : Fin 32) (n : Fin 16) (c : Fin 64) (r q : Fin 32) :
    val_main_v27 (F := Ideal) x0 x1 x2
        (ix4 s (⟨n.val * 64 + c.val, by have := n.isLt; have := c.isLt; omega⟩ : Fin 1024) r q)
      = x1 (ix2 n c) * ((x0 (ix4 s c r q) - val_main_v2 (F := Ideal) x0 (ix1 c)) * val_main_v12 (F := Ideal) x0 (ix1 c))
        + x2 (ix2 n c) := by
  have e19 : idx_main_v19 (idx_main_v21 (ix5 s n c r q)) = ix2 n c := by
    funext a; match a with | ⟨0, _⟩ => rfl | ⟨1, _⟩ => rfl
  have e24 : idx_main_v24 (idx_main_v25 (ix5 s n c r q)) = ix2 n c := by
    funext a; match a with | ⟨0, _⟩ => rfl | ⟨1, _⟩ => rfl
  have e20 : idx_main_v20 (idx_main_v22 (ix5 s n c r q)) = ix4 s c r q := by
    funext a; match a with | ⟨0, _⟩ => rfl | ⟨1, _⟩ => rfl | ⟨2, _⟩ => rfl | ⟨3, _⟩ => rfl
  have e13 : idx_main_v13 (idx_main_v14 (ix4 s c r q)) = ix1 c := by
    funext a; match a with | ⟨0, _⟩ => rfl
  have e16 : idx_main_v16 (idx_main_v17 (ix4 s c r q)) = ix1 c := by
    funext a; match a with | ⟨0, _⟩ => rfl
  rw [val_main_v27_apply, idx27, val_main_v26_apply, val_main_v23_apply, val_main_v21_apply, val_main_v19_apply, e19,
    val_main_v22_apply, val_main_v20_apply, e20, val_main_v18_apply, val_main_v15_apply, val_main_v14_apply,
    val_main_v13_apply, e13, val_main_v17_apply, val_main_v16_apply, e16, val_main_v25_apply, val_main_v24_apply, e24]
  rfl

/-- The channel's sum. -/
theorem v0_eq (x0 : FVec Ideal ⟨4, ![32, 64, 32, 32]⟩ .f32) (c : Fin 64) :
    val_main_v0 (F := Ideal) x0 (ix1 c) = 0 + ∑ p : Fin 32 × Fin 1024, x0 (chan c p) := by
  show Ideal.hostReduceAdd reducesTo_S32x64x32x32_S64_d0_2_3 x0 (Ideal.ofBits .f32 0x00000000#32) (ix1 c) = _
  rw [hostReduceAdd_channel, Ideal.ofBits_zero_f32]

/-- The channel's mean. -/
theorem v2_eq (x0 : FVec Ideal ⟨4, ![32, 64, 32, 32]⟩ .f32) (c : Fin 64) :
    val_main_v2 (F := Ideal) x0 (ix1 c)
      = Ideal.div (0 + ∑ p : Fin 32 × Fin 1024, x0 (chan c p)) ((32768 : ℝ) : EReal) := by
  rw [val_main_v2_apply, v0_eq, val_main_v1_apply, val_main_cst_0_apply]
  simp only [Ideal.hostDivf_def, Ideal.ofBits_def, Cert.RefConsts.ofBits_n]

/-- A squared deviation inside channel c. -/
theorem v6_chan (x0 : FVec Ideal ⟨4, ![32, 64, 32, 32]⟩ .f32) (c : Fin 64) (p : Fin 32 × Fin 1024) :
    val_main_v6 (F := Ideal) x0 (chan c p)
      = (x0 (chan c p) - val_main_v2 (F := Ideal) x0 (ix1 c)) * (x0 (chan c p) - val_main_v2 (F := Ideal) x0 (ix1 c)) := by
  have e : idx_main_v3 (idx_main_v4 (chan c p)) = ix1 c := by
    funext a; match a with | ⟨0, _⟩ => rfl
  rw [val_main_v6_apply, val_main_v5_apply, val_main_v4_apply, val_main_v3_apply, e]
  rfl

/-- The channel's sum of squared deviations. -/
theorem v7_eq (x0 : FVec Ideal ⟨4, ![32, 64, 32, 32]⟩ .f32) (c : Fin 64) :
    val_main_v7 (F := Ideal) x0 (ix1 c)
      = 0 + ∑ p : Fin 32 × Fin 1024,
          (x0 (chan c p) - val_main_v2 (F := Ideal) x0 (ix1 c)) * (x0 (chan c p) - val_main_v2 (F := Ideal) x0 (ix1 c)) := by
  show Ideal.hostReduceAdd reducesTo_S32x64x32x32_S64_d0_2_3 (val_main_v6 (F := Ideal) x0)
      (Ideal.ofBits .f32 0x00000000#32) (ix1 c) = _
  rw [hostReduceAdd_channel, Ideal.ofBits_zero_f32]
  simp only [v6_chan]

/-- The channel's reciprocal deviation. -/
theorem v12_eq (x0 : FVec Ideal ⟨4, ![32, 64, 32, 32]⟩ .f32) (c : Fin 64) :
    val_main_v12 (F := Ideal) x0 (ix1 c)
      = Ideal.rsqrt (Ideal.div (0 + ∑ p : Fin 32 × Fin 1024,
            (x0 (chan c p) - val_main_v2 (F := Ideal) x0 (ix1 c)) * (x0 (chan c p) - val_main_v2 (F := Ideal) x0 (ix1 c)))
          ((32768 : ℝ) : EReal) + Ideal.ofBits .f32 0x3727C5AC#32) := by
  rw [val_main_v12_apply, val_main_v11_apply, val_main_v9_apply, v7_eq, val_main_v8_apply, val_main_cst_2_apply,
    val_main_v10_apply, val_main_cst_3_apply]
  simp only [Ideal.hostUnary_rsqrt_def, Ideal.addf_def, Ideal.hostDivf_def, Ideal.ofBits_def, Cert.RefConsts.ofBits_n]

end Cert.RefRead

end
-- ==== Proof.RefSpec.lean ====
/-
  The reference program computes the specification.

  With every input entry a real number, at each result element the reference's
      g · ((x − mean) · inv) + b
  and the specification's
      x · (g · inv) + (b − mean · (g · inv))
  agree: the two means are the same real number (division by 32768 is the product with 2⁻¹⁵), the two variances are
  the same real number (mean of squares minus squared mean is the mean of squared deviations), that number is not
  negative, so after ε > 0 is added both reciprocal square roots are the same real number, and the two affine forms are
  equal by distributivity on the reals.
-/
import proofs.«138456_j7902739824826_2_alg».proof.Proof.Spec
import proofs.«138456_j7902739824826_2_alg».proof.Proof.Finite
import proofs.«138456_j7902739824826_2_alg».proof.Proof.SpecAlgebra
import proofs.«138456_j7902739824826_2_alg».proof.Proof.RefConsts
import proofs.«138456_j7902739824826_2_alg».proof.Proof.RefSums
import proofs.«138456_j7902739824826_2_alg».proof.Proof.RefRead

noncomputable section

namespace Cert.RefSpec

open Idealize.ShloMosaic Idealize.ShloMosaic.ValueIdx
open Cert.RefSums Cert.RefRead
open scoped BigOperators

/-- Position 32 · r + q of channel c at sample s is the index (s, c, r, q). -/
theorem chan_mk (s : Fin 32) (c : Fin 64) (r q : Fin 32) :
    chan c (s, (⟨r.val * 32 + q.val, by have := r.isLt; have := q.isLt; omega⟩ : Fin 1024)) = ix4 s c r q := by
  have hq := q.isLt
  funext a
  match a with
  | ⟨0, _⟩ => rfl
  | ⟨1, _⟩ => rfl
  | ⟨2, _⟩ => exact Fin.ext (by show (r.val * 32 + q.val) / 32 = r.val; omega)
  | ⟨3, _⟩ => exact Fin.ext (by show (r.val * 32 + q.val) % 32 = q.val; omega)

/-- The specification's mean of a channel, over the pairs (sample, position). -/
theorem mean_eq (x0 : FVec Ideal ⟨4, ![32, 64, 32, 32]⟩ .f32)
    (hr : (⟨4, ![32, 64, 32, 32]⟩ : Shape).ShapeCasts ⟨3, ![32, 64, 1024]⟩) (c : Fin 64) :
    Cert.Spec.mean (shapeCast ⟨3, ![32, 64, 1024]⟩ x0 hr) c
      = (∑ p : Fin 32 × Fin 1024, x0 (chan c p)) * ((1 / 32768 : ℝ) : EReal) := by
  show Cert.Spec.S1 (shapeCast ⟨3, ![32, 64, 1024]⟩ x0 hr) c * Ideal.ofBits .f32 0x38000000#32 = _
  rw [S1_eq, Cert.RefConsts.ofBits_w]

/-- The specification's reciprocal deviation of a channel, over the pairs (sample, position). -/
theorem inv_eq (x0 : FVec Ideal ⟨4, ![32, 64, 32, 32]⟩ .f32)
    (hr : (⟨4, ![32, 64, 32, 32]⟩ : Shape).ShapeCasts ⟨3, ![32, 64, 1024]⟩) (c : Fin 64) :
    Cert.Spec.inv (shapeCast ⟨3, ![32, 64, 1024]⟩ x0 hr) c
      = Ideal.rsqrt ((∑ p : Fin 32 × Fin 1024, x0 (chan c p) * x0 (chan c p)) * ((1 / 32768 : ℝ) : EReal)
          - Cert.Spec.mean (shapeCast ⟨3, ![32, 64, 1024]⟩ x0 hr) c * Cert.Spec.mean (shapeCast ⟨3, ![32, 64, 1024]⟩ x0 hr) c
          + Ideal.ofBits .f32 0x3727C5AC#32) := by
  show Ideal.rsqrt (Cert.Spec.S2 (shapeCast ⟨3, ![32, 64, 1024]⟩ x0 hr) c * Ideal.ofBits .f32 0x38000000#32
      - Cert.Spec.mean (shapeCast ⟨3, ![32, 64, 1024]⟩ x0 hr) c * Cert.Spec.mean (shapeCast ⟨3, ![32, 64, 1024]⟩ x0 hr) c
      + Ideal.ofBits .f32 0x3727C5AC#32) = _
  rw [S2_eq, Cert.RefConsts.ofBits_w]

/-- THE REFERENCE IS THE SPECIFICATION, on inputs all of whose entries are real. -/
theorem ref_eq_spec
    (x0 : FVec Ideal ⟨4, ![32, 64, 32, 32]⟩ .f32) (x1 x2 : FVec Ideal ⟨2, ![16, 64]⟩ .f32)
    (hr : (⟨4, ![32, 64, 32, 32]⟩ : Shape).ShapeCasts ⟨3, ![32, 64, 1024]⟩)
    (ho : (⟨4, ![32, 16, 64, 1024]⟩ : Shape).ShapeCasts ⟨4, ![32, 1024, 32, 32]⟩)
    (h0 : Finite x0) (h1 : Finite x1) (h2 : Finite x2) :
    Cert.ReferenceIdeal.Read.val_main_v27 (F := Ideal) x0 x1 x2
      = shapeCast ⟨4, ![32, 1024, 32, 32]⟩ (Cert.Spec.G (shapeCast ⟨3, ![32, 64, 1024]⟩ x0 hr) x1 x2) ho := by
  funext j
  obtain ⟨s, n', r, q, rfl⟩ : ∃ (s : Fin 32) (n' : Fin 1024) (r q : Fin 32), j = ix4 s n' r q :=
    ⟨j 0, j 1, j 2, j 3, eq_ix4 j⟩
  obtain ⟨n, c, rfl⟩ : ∃ (n : Fin 16) (c : Fin 64),
      n' = (⟨n.val * 64 + c.val, by have := n.isLt; have := c.isLt; omega⟩ : Fin 1024) :=
    ⟨⟨n'.val / 64, by have := n'.isLt; omega⟩, ⟨n'.val % 64, Nat.mod_lt _ (by decide)⟩,
      Fin.ext (by show n'.val = n'.val / 64 * 64 + n'.val % 64; omega)⟩
  rw [read_out, out_apply]
  show _ = shapeCast ⟨3, ![32, 64, 1024]⟩ x0 hr
        (ix3 s c (⟨r.val * 32 + q.val, by have := r.isLt; have := q.isLt; omega⟩ : Fin 1024))
      * (x1 (ix2 n c) * Cert.Spec.inv (shapeCast ⟨3, ![32, 64, 1024]⟩ x0 hr) c)
      + (x2 (ix2 n c) - Cert.Spec.mean (shapeCast ⟨3, ![32, 64, 1024]⟩ x0 hr) c
          * (x1 (ix2 n c) * Cert.Spec.inv (shapeCast ⟨3, ![32, 64, 1024]⟩ x0 hr) c))
  rw [xr_apply, chan_mk]
  -- real witnesses
  choose a ha using h0
  choose g hg using h1
  choose b hb using h2
  obtain ⟨er, her, heps⟩ := Cert.RefConsts.ofBits_eps
  obtain ⟨m, v, hm1, hm2, hv1, hv2⟩ :=
    Cert.SpecAlgebra.stats (fun p : Fin 32 × Fin 1024 => x0 (chan c p)) (fun p => a (chan c p)) (fun p => ha _)
      32768 er card_chan (by norm_num) her
  have hmr : Cert.ReferenceIdeal.Read.val_main_v2 (F := Ideal) x0 (ix1 c) = (m : EReal) := by
    rw [v2_eq]; exact hm1
  have hvr : Cert.ReferenceIdeal.Read.val_main_v12 (F := Ideal) x0 (ix1 c) = (v : EReal) := by
    rw [v12_eq, hmr, heps]; exact hv1
  have hms : Cert.Spec.mean (shapeCast ⟨3, ![32, 64, 1024]⟩ x0 hr) c = (m : EReal) := by
    rw [mean_eq]; exact hm2
  have hvs : Cert.Spec.inv (shapeCast ⟨3, ![32, 64, 1024]⟩ x0 hr) c = (v : EReal) := by
    rw [inv_eq, hms, heps]; exact hv2
  rw [hmr, hvr, hms, hvs, ha, hg, hb]
  exact Cert.SpecAlgebra.affine _ _ _ _ _

end Cert.RefSpec

end
-- ==== Proof.PreFinite.lean ====
/-
  From the precondition to finiteness.

  The precondition is the conjunction, over the three input arrays, of "every entry has absolute value below +∞".
  On the extended reals the absolute value is max x (−x), which is +∞ at both infinities, and the pattern 0x7F800000
  denotes +∞; so each entry is neither infinity, that is, it is a real number.
-/
import proofs.«138456_j7902739824826_2_alg».proof.Pre_finite_inputs
import proofs.«138456_j7902739824826_2_alg».proof.Proof.Finite
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.ValueIdx

/-- The scalar shape has one index. -/
instance subsingletonScalarIdx : Subsingleton (⟨0, ![]⟩ : Shape).Idx := ⟨fun a b => funext fun d => d.elim0⟩

/-- The pattern 0x7F800000 denotes +∞. -/
theorem ofBits_inf : Ideal.ofBits .f32 0x7F800000#32 = ⊤ := by
  simp [Ideal.ofBits, Ideal.ieee]

/-- An extended real whose absolute value is below +∞ is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.hostAbsf_def, Ideal.cmpf_def, Ideal.absf_def, Ideal.ofBits_def, ofBits_inf] at h
  induction x using EReal.rec with
  | bot => simp [Ideal.cmp] at h
  | top => simp [Ideal.cmp] at h
  | coe r => exact ⟨r, rfl⟩

theorem finite_of_pre [Cert.Pre_finite_inputs.Facts]
    (x0 : FVec Ideal ⟨4, ![32, 64, 32, 32]⟩ .f32) (x1 x2 : FVec Ideal ⟨2, ![16, 64]⟩ .f32)
    (h : Cert.Pre_finite_inputs.fn (F := Ideal) x0 x1 x2 = (fun _ => 1#1)) :
    Cert.RefSpec.Finite x0 ∧ Cert.RefSpec.Finite x1 ∧ Cert.RefSpec.Finite x2 := by
  have e := congrFun h ix0
  dsimp only [Cert.Pre_finite_inputs.fn] at e
  obtain ⟨e01, e2⟩ := IntOp.andi_eq_one.mp e
  obtain ⟨e0, e1⟩ := IntOp.andi_eq_one.mp e01
  refine ⟨fun i => ?_, fun i => ?_, fun i => ?_⟩
  · exact real_of_abs_lt (x0 i) (Host.reduce_andi_all _ _ _ _ _ e0 i)
  · exact real_of_abs_lt (x1 i) (Host.reduce_andi_all _ _ _ _ _ e1 i)
  · exact real_of_abs_lt (x2 i) (Host.reduce_andi_all _ _ _ _ _ e2 i)

end Cert.PreFinite

end
-- ==== Proof.lean ====
/-
  Equivalence of a BatchNorm-with-16-branches kernel and its reference, over the extended reals.

  The kernel: a statistics pass sums each channel's entries and squares over 4 blocks of 8 samples into a scratch and, at
  the last block, stores mean = S1 · 2⁻¹⁵ and inv = rsqrt(S2 · 2⁻¹⁵ − mean² + ε) (32 · 1024 = 2¹⁵ entries per channel);
  host lines fold these with the affine tables into scale = g · inv and shift = b − mean · scale per branch; an affine
  pass writes x · scale + shift for each of the 16 branches.  The reference: mean = Σx / 32768, variance =
  Σ(x − mean)² / 32768, g · ((x − mean) · rsqrt(variance + ε)) + b.

  Frames: each pass's body is run symbolically, case by case for the statistics pass (first block: zero the scratch, then
  add; middle: add; last: add, then finish), the scratch's contents carried between grid points by the invariant; the
  program is the chain reshape — statistics pass — host lines — affine pass — reshape, and no segment writes an argument.
  Value: the kernel's result is the reshape of one function `Spec.G` of the reshaped input and the tables (the running
  sums over the blocks regroup into the channel's sums; the tables and the affine pass read index by index); the reference's
  is the same function when every input entry is a real number — Σa²/n − (Σa/n)² = Σ(a − Σa/n)²/n, the variance is then a
  nonnegative real so rsqrt(variance + ε) is a real, and g((x − μ)r) + b = x(gr) + (b − μ(gr)) in ℝ — which the
  precondition provides.  The idealization rewrote nothing, so `preserves` is trivial.
-/
import proofs.«138456_j7902739824826_2_alg».proof.Defs
import proofs.«138456_j7902739824826_2_alg».proof.Proof.Gen.Kernel
import proofs.«138456_j7902739824826_2_alg».proof.Proof.Gen.KernelIdeal
import proofs.«138456_j7902739824826_2_alg».proof.Proof.Gen.ReferenceIdeal
import proofs.«138456_j7902739824826_2_alg».proof.Proof.Gen.Pre_finite_inputs
import proofs.«138456_j7902739824826_2_alg».proof.Proof.Gen.ReferenceIdeal.Read
import proofs.«138456_j7902739824826_2_alg».proof.Proof.K.Run
import proofs.«138456_j7902739824826_2_alg».proof.Proof.KI.ValFinal
import proofs.«138456_j7902739824826_2_alg».proof.Proof.RefSpec
import proofs.«138456_j7902739824826_2_alg».proof.Proof.PreFinite

noncomputable section

namespace Cert.Proof

open Idealize.ShloMosaic Idealize.ShloMosaic.TcCoe Idealize.SL.Sem

/-- The kernel as printed runs to the end, faults nowhere and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end at the reshape of the specification of the arguments: the kernel always, the
    reference because the precondition makes every entry a real number. -/
theorem algebraic : Cert.algebraic_KernelIdeal_ReferenceIdeal := by
  intro m ρ m' ρ' hpre hagree
  refine ⟨fun c => shapeCast Cert.KernelIdeal.S32x1024x32x32
      (Cert.Spec.G (Cert.KernelIdeal.Hand.xrOf m c) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      Cert.KernelIdeal.Facts₀.shapeCasts_S32x16x64x1024_S32x1024x32x32, ?_, ?_⟩
  · exact (θ_run Cert.KernelIdeal.defs _ _).mono
      (fun _ h c => ⟨(h c).1.trans (Cert.KernelIdeal.Hand.result_eq m ρ c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v27_eq _ _ _).trans ?_
    rw [(hagree c).1, (hagree c).2.1, (hagree c).2.2]
    obtain ⟨f0, f1, f2⟩ := Cert.PreFinite.finite_of_pre _ _ _ (hpre c)
    exact Cert.RefSpec.ref_eq_spec _ _ _ _ _ f0 f1 f2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
